-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v72)) (v1 : (c : Dev Cert.KernelIdeal.nD) → Buf (Elt Ideal) ((c.tc : Thread Cert.KernelIdeal.nD Cert.KernelIdeal.τ).loc Cert.KernelIdeal.main_v73)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v72) = v0 c
          ∧ r.2.mem ((c.tc : Thread Cert.KernelIdeal.nD Cert.KernelIdeal.τ).loc Cert.KernelIdeal.main_v73) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v89) = v0 c
          ∧ r.2.mem ((c.tc : Thread Cert.ReferenceIdeal.nD Cert.ReferenceIdeal.τ).loc Cert.ReferenceIdeal.main_v90) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S200000x64 : Shape := ⟨2, ![200000, 64]⟩
abbrev S100000x64 : Shape := ⟨2, ![100000, 64]⟩
abbrev S64x64 : Shape := ⟨2, ![64, 64]⟩
abbrev S64 : Shape := ⟨1, ![64]⟩
abbrev S100000 : Shape := ⟨1, ![100000]⟩
abbrev S1600000 : Shape := ⟨1, ![1600000]⟩
abbrev S800000 : Shape := ⟨1, ![800000]⟩
abbrev S_ : Shape := ⟨0, ![]⟩

class Facts : Prop where
  bcast_S_S200000x64 : S_.BroadcastsInDim S200000x64 (![] : Fin 0 → Fin S200000x64.rank)
  reducesTo_S200000x64_S_d0_1 : S200000x64.ReducesTo [0, 1] S_
  h_S_ : 0 < S_.numel
  bcast_S_S100000x64 : S_.BroadcastsInDim S100000x64 (![] : Fin 0 → Fin S100000x64.rank)
  reducesTo_S100000x64_S_d0_1 : S100000x64.ReducesTo [0, 1] S_
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_

variable [Facts]

def fn_part2 {F : FTy → Type} [FloatOps F] (main_arg7 : FVec F S64x64 .f32) (main_v33 : IVec S_ 1) : IVec S_ 1 :=
  let main_v34 : FVec F S64x64 .f32 := Host.absf main_arg7
  let main_cst_12 : FVec F S_ .f32 := constant S_ .f32 0x7F800000#32
  let main_v35 : FVec F S64x64 .f32 := broadcastInDim S64x64 ![] bcast_S_S64x64 main_cst_12
  let main_v36 : IVec S64x64 1 := cmpf .olt main_v34 main_v35
  let main_c_13 : IVec S_ 1 := constantI S_ 1 1#1
  let main_v37 : IVec S_ 1 := (fun x v => Host.reduce IntOp.andi x v reducesTo_S64x64_S_d0_1 h_S_) main_v36 main_c_13
  let main_v38 : IVec S_ 1 := andi main_v33 main_v37
  main_v38

def fn_part1 {F : FTy → Type} [FloatOps F] (main_arg4 : FVec F S64x64 .f32) (main_arg5 : FVec F S64x64 .f32) (main_arg6 : FVec F S64 .f32) (main_arg7 : FVec F S64x64 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x64 .f32 := Host.absf main_arg4
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64x64 .f32 := Host.absf main_arg5
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S64 .f32 := Host.absf main_arg6
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg7 main_v33

def fn {F : FTy → Type} [FloatOps F] (main_arg0 : FVec F S200000x64 .f32) (main_arg1 : FVec F S100000x64 .f32) (main_arg2 : FVec F S64x64 .f32) (main_arg3 : FVec F S64 .f32) (main_arg4 : FVec F S64x64 .f32) (main_arg5 : FVec F S64x64 .f32) (main_arg6 : FVec F S64 .f32) (main_arg7 : FVec F S64x64 .f32) (main_arg8 : IVec S100000 32) (main_arg9 : IVec S1600000 32) (main_arg10 : IVec S1600000 32) (main_arg11 : IVec S1600000 32) (main_arg12 : IVec S1600000 32) (main_arg13 : IVec S800000 32) (main_arg14 : IVec S800000 32) : IVec S_ 1 :=
  let main_v0 : FVec F S200000x64 .f32 := Host.absf main_arg0
  let main_cst : FVec F S_ .f32 := constant S_ .f32 0x7F800000#32
  let main_v1 : FVec F S200000x64 .f32 := broadcastInDim S200000x64 ![] bcast_S_S200000x64 main_cst
  let main_v2 : IVec S200000x64 1 := cmpf .olt main_v0 main_v1
  let main_c : IVec S_ 1 := constantI S_ 1 1#1
  let main_v3 : IVec S_ 1 := (fun x v => Host.reduce IntOp.andi x v reducesTo_S200000x64_S_d0_1 h_S_) main_v2 main_c
  let main_v4 : FVec F S100000x64 .f32 := Host.absf main_arg1
  let main_cst_0 : FVec F S_ .f32 := constant S_ .f32 0x7F800000#32
  let main_v5 : FVec F S100000x64 .f32 := broadcastInDim S100000x64 ![] bcast_S_S100000x64 main_cst_0
  let main_v6 : IVec S100000x64 1 := cmpf .olt main_v4 main_v5
  let main_c_1 : IVec S_ 1 := constantI S_ 1 1#1
  let main_v7 : IVec S_ 1 := (fun x v => Host.reduce IntOp.andi x v reducesTo_S100000x64_S_d0_1 h_S_) main_v6 main_c_1
  let main_v8 : IVec S_ 1 := andi main_v3 main_v7
  let main_v9 : FVec F S64x64 .f32 := Host.absf main_arg2
  let main_cst_2 : FVec F S_ .f32 := constant S_ .f32 0x7F800000#32
  let main_v10 : FVec F S64x64 .f32 := broadcastInDim S64x64 ![] bcast_S_S64x64 main_cst_2
  let main_v11 : IVec S64x64 1 := cmpf .olt main_v9 main_v10
  let main_c_3 : IVec S_ 1 := constantI S_ 1 1#1
  let main_v12 : IVec S_ 1 := (fun x v => Host.reduce IntOp.andi x v reducesTo_S64x64_S_d0_1 h_S_) main_v11 main_c_3
  let main_v13 : IVec S_ 1 := andi main_v8 main_v12
  let main_v14 : FVec F S64 .f32 := Host.absf main_arg3
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg4 main_arg5 main_arg6 main_arg7 main_v13 main_v16
-- ==== Kernel.lean ====
abbrev S200000x64 : Shape := ⟨2, ![200000, 64]⟩
abbrev S100000x64 : Shape := ⟨2, ![100000, 64]⟩
abbrev S64x64 : Shape := ⟨2, ![64, 64]⟩
abbrev S64 : Shape := ⟨1, ![64]⟩
abbrev S100000 : Shape := ⟨1, ![100000]⟩
abbrev S1600000 : Shape := ⟨1, ![1600000]⟩
abbrev S800000 : Shape := ⟨1, ![800000]⟩
abbrev S_ : Shape := ⟨0, ![]⟩
abbrev S100000x1 : Shape := ⟨2, ![100000, 1]⟩
abbrev S1600000x1 : Shape := ⟨2, ![1600000, 1]⟩
abbrev S1600000x64 : Shape := ⟨2, ![1600000, 64]⟩
abbrev S800000x1 : Shape := ⟨2, ![800000, 1]⟩
abbrev S800000x64 : Shape := ⟨2, ![800000, 64]⟩
abbrev S200000 : Shape := ⟨1, ![200000]⟩
abbrev S200000x1 : Shape := ⟨2, ![200000, 1]⟩
abbrev S10000x64 : Shape := ⟨2, ![10000, 64]⟩
abbrev S1x64 : Shape := ⟨2, ![1, 64]⟩

abbrev nBuf : Space → Nat
  | .hbm => 109
  | .vmem => 23
  | .smem => 0
  | _ => 0

abbrev bufTy : (tb : Table) → Fin (tcTables nBuf tb) → BufTy
  | .hbm, ⟨0, _⟩ => ⟨S200000x64, .f32⟩
  | .hbm, ⟨1, _⟩ => ⟨S100000x64, .f32⟩
  | .hbm, ⟨2, _⟩ => ⟨S64x64, .f32⟩
  | .hbm, ⟨3, _⟩ => ⟨S64, .f32⟩
  | .hbm, ⟨4, _⟩ => ⟨S64x64, .f32⟩
  | .hbm, ⟨5, _⟩ => ⟨S64x64, .f32⟩
  | .hbm, ⟨6, _⟩ => ⟨S64, .f32⟩
  | .hbm, ⟨7, _⟩ => ⟨S64x64, .f32⟩
  | .hbm, ⟨8, _⟩ => ⟨S100000, .i32⟩
  | .hbm, ⟨9, _⟩ => ⟨S1600000, .i32⟩
  | .hbm, ⟨10, _⟩ => ⟨S1600000, .i32⟩
  | .hbm, ⟨11, _⟩ => ⟨S1600000, .i32⟩
  | .hbm, ⟨12, _⟩ => ⟨S1600000, .i32⟩
  | .hbm, ⟨13, _⟩ => ⟨S800000, .i32⟩
  | .hbm, ⟨14, _⟩ => ⟨S800000, .i32⟩
  | .hbm, ⟨15, _⟩ => ⟨S_, .i32⟩
  | .hbm, ⟨16, _⟩ => ⟨S100000, .i32⟩
  | .hbm, ⟨17, _⟩ => ⟨S100000, .i1⟩
  | .hbm, ⟨18, _⟩ => ⟨S_, .i32⟩
  | .hbm, ⟨19, _⟩ => ⟨S100000, .i32⟩
  | .hbm, ⟨20, _⟩ => ⟨S100000, .i32⟩
  | .hbm, ⟨21, _⟩ => ⟨S100000, .i32⟩
  | .hbm, ⟨22, _⟩ => ⟨S100000x1, .i32⟩
  | .hbm, ⟨23, _⟩ => ⟨S100000x64, .f32⟩
  | .hbm, ⟨24, _⟩ => ⟨S_, .i32⟩
  | .hbm, ⟨25, _⟩ => ⟨S1600000, .i32⟩
  | .hbm, ⟨26, _⟩ => ⟨S1600000, .i1⟩
  | .hbm, ⟨27, _⟩ => ⟨S_, .i32⟩
  | .hbm, ⟨28, _⟩ => ⟨S1600000, .i32⟩
  | .hbm, ⟨29, _⟩ => ⟨S1600000, .i32⟩
  | .hbm, ⟨30, _⟩ => ⟨S1600000, .i32⟩
  | .hbm, ⟨31, _⟩ => ⟨S1600000x1, .i32⟩
  | .hbm, ⟨32, _⟩ => ⟨S1600000x64, .f32⟩
  | .hbm, ⟨33, _⟩ => ⟨S_, .f32⟩
  | .hbm, ⟨34, _⟩ => ⟨S100000x64, .f32⟩
  | .hbm, ⟨35, _⟩ => ⟨S1600000x1, .i32⟩
  | .hbm, ⟨36, _⟩ => ⟨S100000x64, .f32⟩
  | .hbm, ⟨37, _⟩ => ⟨S_, .f32⟩
  | .hbm, ⟨38, _⟩ => ⟨S1600000, .f32⟩
  | .hbm, ⟨39, _⟩ => ⟨S_, .f32⟩
  | .hbm, ⟨40, _⟩ => ⟨S100000, .f32⟩
  | .hbm, ⟨41, _⟩ => ⟨S1600000x1, .i32⟩
  | .hbm, ⟨42, _⟩ => ⟨S100000, .f32⟩
  | .hbm, ⟨43, _⟩ => ⟨S_, .f32⟩
  | .hbm, ⟨44, _⟩ => ⟨S100000, .f32⟩
  | .hbm, ⟨45, _⟩ => ⟨S100000, .f32⟩
  | .hbm, ⟨46, _⟩ => ⟨S100000x1, .f32⟩
  | .hbm, ⟨47, _⟩ => ⟨S100000x64, .f32⟩
  | .hbm, ⟨48, _⟩ => ⟨S100000x64, .f32⟩
  | .hbm, ⟨49, _⟩ => ⟨S_, .i32⟩
  | .hbm, ⟨50, _⟩ => ⟨S800000, .i32⟩
  | .hbm, ⟨51, _⟩ => ⟨S800000, .i1⟩
  | .hbm, ⟨52, _⟩ => ⟨S_, .i32⟩
  | .hbm, ⟨53, _⟩ => ⟨S800000, .i32⟩
  | .hbm, ⟨54, _⟩ => ⟨S800000, .i32⟩
  | .hbm, ⟨55, _⟩ => ⟨S800000, .i32⟩
  | .hbm, ⟨56, _⟩ => ⟨S800000x1, .i32⟩
  | .hbm, ⟨57, _⟩ => ⟨S800000x64, .f32⟩
  | .hbm, ⟨58, _⟩ => ⟨S_, .f32⟩
  | .hbm, ⟨59, _⟩ => ⟨S100000x64, .f32⟩
  | .hbm, ⟨60, _⟩ => ⟨S800000x1, .i32⟩
  | .hbm, ⟨61, _⟩ => ⟨S100000x64, .f32⟩
  | .hbm, ⟨62, _⟩ => ⟨S_, .f32⟩
  | .hbm, ⟨63, _⟩ => ⟨S800000, .f32⟩
  | .hbm, ⟨64, _⟩ => ⟨S_, .f32⟩
  | .hbm, ⟨65, _⟩ => ⟨S100000, .f32⟩
  | .hbm, ⟨66, _⟩ => ⟨S800000x1, .i32⟩
  | .hbm, ⟨67, _⟩ => ⟨S100000, .f32⟩
  | .hbm, ⟨68, _⟩ => ⟨S_, .f32⟩
  | .hbm, ⟨69, _⟩ => ⟨S100000, .f32⟩
  | .hbm, ⟨70, _⟩ => ⟨S100000, .f32⟩
  | .hbm, ⟨71, _⟩ => ⟨S100000x1, .f32⟩
  | .hbm, ⟨72, _⟩ => ⟨S100000x64, .f32⟩
  | .hbm, ⟨73, _⟩ => ⟨S100000x64, .f32⟩
  | .hbm, ⟨74, _⟩ => ⟨S_, .i32⟩
  | .hbm, ⟨75, _⟩ => ⟨S1600000, .i32⟩
  | .hbm, ⟨76, _⟩ => ⟨S1600000, .i1⟩
  | .hbm, ⟨77, _⟩ => ⟨S_, .i32⟩
  | .hbm, ⟨78, _⟩ => ⟨S1600000, .i32⟩
  | .hbm, ⟨79, _⟩ => ⟨S1600000, .i32⟩
  | .hbm, ⟨80, _⟩ => ⟨S1600000, .i32⟩
  | .hbm, ⟨81, _⟩ => ⟨S1600000x1, .i32⟩
  | .hbm, ⟨82, _⟩ => ⟨S1600000x64, .f32⟩
  | .hbm, ⟨83, _⟩ => ⟨S_, .f32⟩
  | .hbm, ⟨84, _⟩ => ⟨S200000x64, .f32⟩
  | .hbm, ⟨85, _⟩ => ⟨S1600000x1, .i32⟩
  | .hbm, ⟨86, _⟩ => ⟨S200000x64, .f32⟩
  | .hbm, ⟨87, _⟩ => ⟨S_, .f32⟩
  | .hbm, ⟨88, _⟩ => ⟨S1600000, .f32⟩
  | .hbm, ⟨89, _⟩ => ⟨S_, .f32⟩
  | .hbm, ⟨90, _⟩ => ⟨S200000, .f32⟩
  | .hbm, ⟨91, _⟩ => ⟨S1600000x1, .i32⟩
  | .hbm, ⟨92, _⟩ => ⟨S200000, .f32⟩
  | .hbm, ⟨93, _⟩ => ⟨S_, .f32⟩
  | .hbm, ⟨94, _⟩ => ⟨S200000, .f32⟩
  | .hbm, ⟨95, _⟩ => ⟨S200000, .f32⟩
  | .hbm, ⟨96, _⟩ => ⟨S200000x1, .f32⟩
  | .hbm, ⟨97, _⟩ => ⟨S200000x64, .f32⟩
  | .hbm, ⟨98, _⟩ => ⟨S200000x64, .f32⟩
  | .hbm, ⟨99, _⟩ => ⟨S64x64, .f32⟩
  | .hbm, ⟨100, _⟩ => ⟨S64x64, .bf16⟩
  | .hbm, ⟨101, _⟩ => ⟨S64x64, .f32⟩
  | .hbm, ⟨102, _⟩ => ⟨S64x64, .bf16⟩
  | .hbm, ⟨103, _⟩ => ⟨S64x64, .f32⟩
  | .hbm, ⟨104, _⟩ => ⟨S64x64, .bf16⟩
  | .hbm, ⟨105, _⟩ => ⟨S64x64, .f32⟩
  | .hbm, ⟨106, _⟩ => ⟨S64x64, .bf16⟩
  | .hbm, ⟨107, _⟩ => ⟨S100000x64, .f32⟩
  | .hbm, ⟨108, _⟩ => ⟨S200000x64, .f32⟩
  | .local _ .vmem, ⟨0, _⟩ => ⟨S10000x64, .f32⟩
  | .local _ .vmem, ⟨1, _⟩ => ⟨S10000x64, .f32⟩
  | .local _ .vmem, ⟨2, _⟩ => ⟨S10000x64, .f32⟩
  | .local _ .vmem, ⟨3, _⟩ => ⟨S10000x64, .f32⟩
  | .local _ .vmem, ⟨4, _⟩ => ⟨S10000x64, .f32⟩
  | .local _ .vmem, ⟨5, _⟩ => ⟨S10000x64, .f32⟩
  | .local _ .vmem, ⟨6, _⟩ => ⟨S64x64, .bf16⟩
  | .local _ .vmem, ⟨7, _⟩ => ⟨S64, .f32⟩
  | .local _ .vmem, ⟨8, _⟩ => ⟨S64x64, .bf16⟩
  | .local _ .vmem, ⟨9, _⟩ => ⟨S64x64, .bf16⟩
  | .local _ .vmem, ⟨10, _⟩ => ⟨S64, .f32⟩
  | .local _ .vmem, ⟨11, _⟩ => ⟨S64x64, .bf16⟩
  | .local _ .vmem, ⟨12, _⟩ => ⟨S10000x64, .f32⟩
  | .local _ .vmem, ⟨13, _⟩ => ⟨S10000x64, .f32⟩
  | .local _ .vmem, ⟨14, _⟩ => ⟨S10000x64, .f32⟩
  | .local _ .vmem, ⟨15, _⟩ => ⟨S10000x64, .f32⟩
  | .local _ .vmem, ⟨16, _⟩ => ⟨S10000x64, .f32⟩
  | .local _ .vmem, ⟨17, _⟩ => ⟨S10000x64, .f32⟩
  | .local _ .vmem, ⟨18, _⟩ => ⟨S64x64, .bf16⟩
  | .local _ .vmem, ⟨19, _⟩ => ⟨S64, .f32⟩
  | .local _ .vmem, ⟨20, _⟩ => ⟨S64x64, .bf16⟩
  | .local _ .vmem, ⟨21, _⟩ => ⟨S10000x64, .f32⟩
  | .local _ .vmem, ⟨22, _⟩ => ⟨S10000x64, .f32⟩
  | _, _ => ⟨S200000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_c : Ref sig .tc := ⟨.hbm, 15, rfl⟩
abbrev main_v0 : Ref sig .tc := ⟨.hbm, 16, rfl⟩
abbrev main_v1 : Ref sig .tc := ⟨.hbm, 17, rfl⟩
abbrev main_c_0 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_c_1 : Ref sig .tc := ⟨.hbm, 24, rfl⟩
abbrev main_v7 : Ref sig .tc := ⟨.hbm, 25, rfl⟩
abbrev main_v8 : Ref sig .tc := ⟨.hbm, 26, rfl⟩
abbrev main_c_2 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_cst : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_cst_3 : Ref sig .tc := ⟨.hbm, 37, rfl⟩
abbrev main_v17 : Ref sig .tc := ⟨.hbm, 38, rfl⟩
abbrev main_cst_4 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_cst_5 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_c_6 : Ref sig .tc := ⟨.hbm, 49, rfl⟩
abbrev main_v26 : Ref sig .tc := ⟨.hbm, 50, rfl⟩
abbrev main_v27 : Ref sig .tc := ⟨.hbm, 51, rfl⟩
abbrev main_c_7 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_cst_8 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_cst_9 : Ref sig .tc := ⟨.hbm, 62, rfl⟩
abbrev main_v36 : Ref sig .tc := ⟨.hbm, 63, rfl⟩
abbrev main_cst_10 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_cst_11 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_c_12 : Ref sig .tc := ⟨.hbm, 74, rfl⟩
abbrev main_v45 : Ref sig .tc := ⟨.hbm, 75, rfl⟩
abbrev main_v46 : Ref sig .tc := ⟨.hbm, 76, rfl⟩
abbrev main_c_13 : Ref sig .tc := ⟨.hbm, 77, rfl⟩
abbrev main_v47 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_cst_14 : Ref sig .tc := ⟨.hbm, 83, rfl⟩
abbrev main_v52 : Ref sig .tc := ⟨.hbm, 84, rfl⟩
abbrev main_v53 : Ref sig .tc := ⟨.hbm, 85, rfl⟩
abbrev main_v54 : Ref sig .tc := ⟨.hbm, 86, rfl⟩
abbrev main_cst_15 : Ref sig .tc := ⟨.hbm, 87, rfl⟩
abbrev main_v55 : Ref sig .tc := ⟨.hbm, 88, rfl⟩
abbrev main_cst_16 : Ref sig .tc := ⟨.hbm, 89, rfl⟩
abbrev main_v56 : Ref sig .tc := ⟨.hbm, 90, rfl⟩
abbrev main_v57 : Ref sig .tc := ⟨.hbm, 91, rfl⟩
abbrev main_v58 : Ref sig .tc := ⟨.hbm, 92, rfl⟩
abbrev main_cst_17 : Ref sig .tc := ⟨.hbm, 93, rfl⟩
abbrev main_v59 : Ref sig .tc := ⟨.hbm, 94, rfl⟩
abbrev main_v60 : Ref sig .tc := ⟨.hbm, 95, rfl⟩
abbrev main_v61 : Ref sig .tc := ⟨.hbm, 96, rfl⟩
abbrev main_v62 : Ref sig .tc := ⟨.hbm, 97, rfl⟩
abbrev main_v63 : Ref sig .tc := ⟨.hbm, 98, rfl⟩
abbrev main_v64 : Ref sig .tc := ⟨.hbm, 99, rfl⟩
abbrev main_v65 : Ref sig .tc := ⟨.hbm, 100, rfl⟩
abbrev main_v66 : Ref sig .tc := ⟨.hbm, 101, rfl⟩
abbrev main_v67 : Ref sig .tc := ⟨.hbm, 102, rfl⟩
abbrev main_v68 : Ref sig .tc := ⟨.hbm, 103, rfl⟩
abbrev main_v69 : Ref sig .tc := ⟨.hbm, 104, rfl⟩
abbrev main_v70 : Ref sig .tc := ⟨.hbm, 105, rfl⟩
abbrev main_v71 : Ref sig .tc := ⟨.hbm, 106, rfl⟩
abbrev main_v72 : Ref sig .tc := ⟨.hbm, 107, rfl⟩
abbrev main_v73 : Ref sig .tc := ⟨.hbm, 108, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg1_1 : Ref sig .tc := ⟨.vmem, 17, rfl⟩
abbrev cc1_stg2_0 : Ref sig .tc := ⟨.vmem, 18, rfl⟩
abbrev cc1_stg3_0 : Ref sig .tc := ⟨.vmem, 19, rfl⟩
abbrev cc1_stg4_0 : Ref sig .tc := ⟨.vmem, 20, rfl⟩
abbrev cc1_stg5_0 : Ref sig .tc := ⟨.vmem, 21, rfl⟩
abbrev cc1_stg5_1 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13
abbrev cc1_sem0_0 : DmaSem sig := 14
abbrev cc1_sem0_1 : DmaSem sig := 15
abbrev cc1_sem1_0 : DmaSem sig := 16
abbrev cc1_sem1_1 : DmaSem sig := 17
abbrev cc1_sem2_0 : DmaSem sig := 18
abbrev cc1_sem3_0 : DmaSem sig := 19
abbrev cc1_sem4_0 : DmaSem sig := 20
abbrev cc1_sem5_0 : DmaSem sig := 21
abbrev cc1_sem5_1 : DmaSem sig := 22

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S10000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S10000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S64x64 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64x64 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S64x64 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S64x64 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S10000x64 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x64 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S64x64 .bf16 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S10000x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  bcast_S_S100000 : S_.BroadcastsInDim S100000 (![] : Fin 0 → Fin S100000.rank)
  bcast_S100000_S100000x1_0 : S100000.BroadcastsInDim S100000x1 (![0] : Fin 1 → Fin S100000x1.rank)
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x64 : S_.BroadcastsInDim S100000x64 (![] : Fin 0 → Fin S100000x64.rank)
  bcast_S100000x1_S100000x64_0_1 : S100000x1.BroadcastsInDim S100000x64 (![0, 1] : Fin 2 → Fin S100000x64.rank)
  bcast_S_S800000 : S_.BroadcastsInDim S800000 (![] : Fin 0 → Fin S800000.rank)
  bcast_S800000_S800000x1_0 : S800000.BroadcastsInDim S800000x1 (![0] : Fin 1 → Fin S800000x1.rank)
  bcast_S_S200000x64 : S_.BroadcastsInDim S200000x64 (![] : Fin 0 → Fin S200000x64.rank)
  bcast_S_S200000 : S_.BroadcastsInDim S200000 (![] : Fin 0 → Fin S200000.rank)
  bcast_S200000_S200000x1_0 : S200000.BroadcastsInDim S200000x1 (![0] : Fin 1 → Fin S200000x1.rank)
  bcast_S200000x1_S200000x64_0_1 : S200000x1.BroadcastsInDim S200000x64 (![0, 1] : Fin 2 → Fin S200000x64.rank)
  transposes_S64x64_S64x64_1_0 : S64x64.Transposes [1, 0] S64x64
  bitsLt_bf16_f32 : FTy.bits .bf16 < FTy.bits .f32
  inb_S10000x64_S10000x64_0_0 : ∀ a, (![0, 0] : Fin 2 → Nat) a + S10000x64.size a ≤ S10000x64.size a
  h_S10000x64 : 0 < S10000x64.numel
  shapeCasts_S10000x64_S10000x64 : S10000x64.ShapeCasts S10000x64
  inb_S64x64_S64x64_0_0 : ∀ a, (![0, 0] : Fin 2 → Nat) a + S64x64.size a ≤ S64x64.size a
  h_S64x64 : 0 < S64x64.numel
  shapeCasts_S64x64_S64x64 : S64x64.ShapeCasts S64x64
  inb_S64_S64_0 : ∀ a, (![0] : Fin 1 → Nat) a + S64.size a ≤ S64.size a
  h_S64 : 0 < S64.numel
  shapeCasts_S64_S1x64 : S64.ShapeCasts S1x64
  broadcasts_S1x64_S10000x64 : S1x64.Broadcasts S10000x64
  gather_S100000x64_S100000x1_S100000x64_1_0_n_n_0_1_164_wf : GatherDims.WF S100000x64 S100000x1 S100000x64 [1] [0] [] [0] [] 1 ![1, 64]
  gather_S200000x64_S1600000x1_S1600000x64_1_0_n_n_0_1_164_wf : GatherDims.WF S200000x64 S1600000x1 S1600000x64 [1] [0] [] [0] [] 1 ![1, 64]
  scatter_S100000x64_S1600000x1_S1600000x64_1_0_0_1_wf : ScatterDims.WF S100000x64 S1600000x1 S1600000x64 [1] [0] [0] 1
  scatter_S100000_S1600000x1_S1600000_n_0_0_1_wf : ScatterDims.WF S100000 S1600000x1 S1600000 [] [0] [0] 1
  gather_S100000x64_S800000x1_S800000x64_1_0_n_n_0_1_164_wf : GatherDims.WF S100000x64 S800000x1 S800000x64 [1] [0] [] [0] [] 1 ![1, 64]
  scatter_S100000x64_S800000x1_S800000x64_1_0_0_1_wf : ScatterDims.WF S100000x64 S800000x1 S800000x64 [1] [0] [0] 1
  scatter_S100000_S800000x1_S800000_n_0_0_1_wf : ScatterDims.WF S100000 S800000x1 S800000 [] [0] [0] 1
  gather_S100000x64_S1600000x1_S1600000x64_1_0_n_n_0_1_164_wf : GatherDims.WF S100000x64 S1600000x1 S1600000x64 [1] [0] [] [0] [] 1 ![1, 64]
  scatter_S200000x64_S1600000x1_S1600000x64_1_0_0_1_wf : ScatterDims.WF S200000x64 S1600000x1 S1600000x64 [1] [0] [0] 1
  scatter_S200000_S1600000x1_S1600000_n_0_0_1_wf : ScatterDims.WF S200000 S1600000x1 S1600000 [] [0] [0] 1
  dot_S10000x64_S64x64_S10000x64_1_0_0_1_n_n_wf : DotDims.WF S10000x64 S64x64 S10000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x64.size a ≤ S100000x64.size a
  hwx0_0 : ∀ i : grid0.Coords, EltTy.bits .f32 = 32 ∨ (Rect.block (s := S100000x64) S10000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S10000x64.size a ≤ S100000x64.size a
  hwx0_1 : ∀ i : grid0.Coords, EltTy.bits .f32 = 32 ∨ (Rect.block (s := S100000x64) S10000x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x64.size a ≤ S100000x64.size a
  hwx0_2 : ∀ i : grid0.Coords, EltTy.bits .f32 = 32 ∨ (Rect.block (s := S100000x64) S10000x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x64.size a ≤ S64x64.size a
  hwx0_3 : ∀ i : grid0.Coords, EltTy.bits .bf16 = 32 ∨ (Rect.block (s := S64x64) S64x64.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64.size a ≤ S64.size a
  hwx0_4 : ∀ i : grid0.Coords, EltTy.bits .f32 = 32 ∨ (Rect.block (s := S64) S64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64x64.size a ≤ S64x64.size a
  hwx0_5 : ∀ i : grid0.Coords, EltTy.bits .bf16 = 32 ∨ (Rect.block (s := S64x64) S64x64.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S64x64.size a ≤ S64x64.size a
  hwx0_6 : ∀ i : grid0.Coords, EltTy.bits .bf16 = 32 ∨ (Rect.block (s := S64x64) S64x64.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S64.size a ≤ S64.size a
  hwx0_7 : ∀ i : grid0.Coords, EltTy.bits .f32 = 32 ∨ (Rect.block (s := S64) S64.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S64x64.size a ≤ S64x64.size a
  hwx0_8 : ∀ i : grid0.Coords, EltTy.bits .bf16 = 32 ∨ (Rect.block (s := S64x64) S64x64.size (cc0_transform_8 i) (hinb0_8 i)).WholeWords (EltTy.packing .bf16)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S10000x64.size a ≤ S100000x64.size a
  hwx0_9 : ∀ i : grid0.Coords, EltTy.bits .f32 = 32 ∨ (Rect.block (s := S100000x64) S10000x64.size (cc0_transform_9 i) (hinb0_9 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S200000x64.size a
  hwx1_0 : ∀ i : grid1.Coords, EltTy.bits .f32 = 32 ∨ (Rect.block (s := S200000x64) S10000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x64.size a ≤ S200000x64.size a
  hwx1_1 : ∀ i : grid1.Coords, EltTy.bits .f32 = 32 ∨ (Rect.block (s := S200000x64) S10000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x64.size a ≤ S64x64.size a
  hwx1_2 : ∀ i : grid1.Coords, EltTy.bits .bf16 = 32 ∨ (Rect.block (s := S64x64) S64x64.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64.size a ≤ S64.size a
  hwx1_3 : ∀ i : grid1.Coords, EltTy.bits .f32 = 32 ∨ (Rect.block (s := S64) S64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S64x64.size a ≤ S64x64.size a
  hwx1_4 : ∀ i : grid1.Coords, EltTy.bits .bf16 = 32 ∨ (Rect.block (s := S64x64) S64x64.size (cc1_transform_4 i) (hinb1_4 i)).WholeWords (EltTy.packing .bf16)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S10000x64.size a ≤ S200000x64.size a
  hwx1_5 : ∀ i : grid1.Coords, EltTy.bits .f32 = 32 ∨ (Rect.block (s := S200000x64) S10000x64.size (cc1_transform_5 i) (hinb1_5 i)).WholeWords (EltTy.packing .f32)

variable [Facts₀]

def gather_S100000x64_S100000x1_S100000x64_1_0_n_n_0_1_164 : GatherDims S100000x64 S100000x1 S100000x64 where
  offsetDims := [1]
  collapsedSliceDims := [0]
  operandBatchingDims := []
  startIndicesBatchingDims := []
  startIndexMap := [0]
  indexVectorDim := 1
  sliceSizes := ![1, 64]
  wf := gather_S100000x64_S100000x1_S100000x64_1_0_n_n_0_1_164_wf
def gather_S200000x64_S1600000x1_S1600000x64_1_0_n_n_0_1_164 : GatherDims S200000x64 S1600000x1 S1600000x64 where
  offsetDims := [1]
  collapsedSliceDims := [0]
  operandBatchingDims := []
  startIndicesBatchingDims := []
  startIndexMap := [0]
  indexVectorDim := 1
  sliceSizes := ![1, 64]
  wf := gather_S200000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x64_S800000x1_S800000x64_1_0_n_n_0_1_164 : GatherDims S100000x64 S800000x1 S800000x64 where
  offsetDims := [1]
  collapsedSliceDims := [0]
  operandBatchingDims := []
  startIndicesBatchingDims := []
  startIndexMap := [0]
  indexVectorDim := 1
  sliceSizes := ![1, 64]
  wf := gather_S100000x64_S800000x1_S800000x64_1_0_n_n_0_1_164_wf
def scatter_S100000x64_S800000x1_S800000x64_1_0_0_1 : ScatterDims S100000x64 S800000x1 S800000x64 where
  updateWindowDims := [1]
  insertedWindowDims := [0]
  scatterDimsToOperandDims := [0]
  indexVectorDim := 1
  wf := scatter_S100000x64_S800000x1_S800000x64_1_0_0_1_wf
def scatter_S100000_S800000x1_S800000_n_0_0_1 : ScatterDims S100000 S800000x1 S800000 where
  updateWindowDims := []
  insertedWindowDims := [0]
  scatterDimsToOperandDims := [0]
  indexVectorDim := 1
  wf := scatter_S100000_S800000x1_S800000_n_0_0_1_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S200000x64_S1600000x1_S1600000x64_1_0_0_1 : ScatterDims S200000x64 S1600000x1 S1600000x64 where
  updateWindowDims := [1]
  insertedWindowDims := [0]
  scatterDimsToOperandDims := [0]
  indexVectorDim := 1
  wf := scatter_S200000x64_S1600000x1_S1600000x64_1_0_0_1_wf
def scatter_S200000_S1600000x1_S1600000_n_0_0_1 : ScatterDims S200000 S1600000x1 S1600000 where
  updateWindowDims := []
  insertedWindowDims := [0]
  scatterDimsToOperandDims := [0]
  indexVectorDim := 1
  wf := scatter_S200000_S1600000x1_S1600000_n_0_0_1_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf

abbrev win0_0 : Pipeline.Window sig grid0 :=
  Pipeline.Window.ofSpec (Memref.whole main_v25) S10000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v6) S10000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v44) S10000x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v65) S64x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg3) S64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v67) S64x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v69) S64x64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg6) S64.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v71) S64x64.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v72) S10000x64.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

abbrev win1_0 : Pipeline.Window sig grid1 :=
  Pipeline.Window.ofSpec (Memref.whole main_v63) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg0) S10000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v65) S64x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg3) S64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v67) S64x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v73) S10000x64.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S200000x64 : Shape := ⟨2, ![200000, 64]⟩
abbrev S100000x64 : Shape := ⟨2, ![100000, 64]⟩
abbrev S64x64 : Shape := ⟨2, ![64, 64]⟩
abbrev S64 : Shape := ⟨1, ![64]⟩
abbrev S100000 : Shape := ⟨1, ![100000]⟩
abbrev S1600000 : Shape := ⟨1, ![1600000]⟩
abbrev S800000 : Shape := ⟨1, ![800000]⟩
abbrev S_ : Shape := ⟨0, ![]⟩
abbrev S100000x1 : Shape := ⟨2, ![100000, 1]⟩
abbrev S1600000x1 : Shape := ⟨2, ![1600000, 1]⟩
abbrev S1600000x64 : Shape := ⟨2, ![1600000, 64]⟩
abbrev S1x64 : Shape := ⟨2, ![1, 64]⟩
abbrev S800000x1 : Shape := ⟨2, ![800000, 1]⟩
abbrev S800000x64 : Shape := ⟨2, ![800000, 64]⟩
abbrev S200000 : Shape := ⟨1, ![200000]⟩
abbrev S200000x1 : Shape := ⟨2, ![200000, 1]⟩

abbrev nBuf : Space → Nat
  | .hbm => 130
  | .vmem => 0
  | .smem => 0
  | _ => 0

abbrev hbmTy0_0 (i : Nat) : BufTy := match i % 128 with
  | 0 => ⟨S200000x64, .f32⟩
  | 1 => ⟨S100000x64, .f32⟩
  | 2 => ⟨S64x64, .f32⟩
  | 3 => ⟨S64, .f32⟩
  | 4 => ⟨S64x64, .f32⟩
  | 5 => ⟨S64x64, .f32⟩
  | 6 => ⟨S64, .f32⟩
  | 7 => ⟨S64x64, .f32⟩
  | 8 => ⟨S100000, .i32⟩
  | 9 => ⟨S1600000, .i32⟩
  | 10 => ⟨S1600000, .i32⟩
  | 11 => ⟨S1600000, .i32⟩
  | 12 => ⟨S1600000, .i32⟩
  | 13 => ⟨S800000, .i32⟩
  | 14 => ⟨S800000, .i32⟩
  | 15 => ⟨S_, .i32⟩
  | 16 => ⟨S100000, .i32⟩
  | 17 => ⟨S100000, .i1⟩
  | 18 => ⟨S_, .i32⟩
  | 19 => ⟨S100000, .i32⟩
  | 20 => ⟨S100000, .i32⟩
  | 21 => ⟨S100000, .i32⟩
  | 22 => ⟨S100000x1, .i32⟩
  | 23 => ⟨S100000x64, .f32⟩
  | 24 => ⟨S_, .i32⟩
  | 25 => ⟨S1600000, .i32⟩
  | 26 => ⟨S1600000, .i1⟩
  | 27 => ⟨S_, .i32⟩
  | 28 => ⟨S1600000, .i32⟩
  | 29 => ⟨S1600000, .i32⟩
  | 30 => ⟨S1600000, .i32⟩
  | 31 => ⟨S1600000x1, .i32⟩
  | 32 => ⟨S1600000x64, .f32⟩
  | 33 => ⟨S_, .f32⟩
  | 34 => ⟨S100000x64, .f32⟩
  | 35 => ⟨S1600000x1, .i32⟩
  | 36 => ⟨S100000x64, .f32⟩
  | 37 => ⟨S_, .f32⟩
  | 38 => ⟨S1600000, .f32⟩
  | 39 => ⟨S_, .f32⟩
  | 40 => ⟨S100000, .f32⟩
  | 41 => ⟨S1600000x1, .i32⟩
  | 42 => ⟨S100000, .f32⟩
  | 43 => ⟨S_, .f32⟩
  | 44 => ⟨S100000, .f32⟩
  | 45 => ⟨S100000, .f32⟩
  | 46 => ⟨S100000x1, .f32⟩
  | 47 => ⟨S100000x64, .f32⟩
  | 48 => ⟨S100000x64, .f32⟩
  | 49 => ⟨S64x64, .f32⟩
  | 50 => ⟨S100000x64, .f32⟩
  | 51 => ⟨S1x64, .f32⟩
  | 52 => ⟨S100000x64, .f32⟩
  | 53 => ⟨S100000x64, .f32⟩
  | 54 => ⟨S64x64, .f32⟩
  | 55 => ⟨S100000x64, .f32⟩
  | 56 => ⟨S100000x64, .f32⟩
  | 57 => ⟨S_, .i32⟩
  | 58 => ⟨S800000, .i32⟩
  | 59 => ⟨S800000, .i1⟩
  | 60 => ⟨S_, .i32⟩
  | 61 => ⟨S800000, .i32⟩
  | 62 => ⟨S800000, .i32⟩
  | 63 => ⟨S800000, .i32⟩
  | 64 => ⟨S800000x1, .i32⟩
  | 65 => ⟨S800000x64, .f32⟩
  | 66 => ⟨S_, .f32⟩
  | 67 => ⟨S100000x64, .f32⟩
  | 68 => ⟨S800000x1, .i32⟩
  | 69 => ⟨S100000x64, .f32⟩
  | 70 => ⟨S_, .f32⟩
  | 71 => ⟨S800000, .f32⟩
  | 72 => ⟨S_, .f32⟩
  | 73 => ⟨S100000, .f32⟩
  | 74 => ⟨S800000x1, .i32⟩
  | 75 => ⟨S100000, .f32⟩
  | 76 => ⟨S_, .f32⟩
  | 77 => ⟨S100000, .f32⟩
  | 78 => ⟨S100000, .f32⟩
  | 79 => ⟨S100000x1, .f32⟩
  | 80 => ⟨S100000x64, .f32⟩
  | 81 => ⟨S100000x64, .f32⟩
  | 82 => ⟨S64x64, .f32⟩
  | 83 => ⟨S100000x64, .f32⟩
  | 84 => ⟨S1x64, .f32⟩
  | 85 => ⟨S100000x64, .f32⟩
  | 86 => ⟨S100000x64, .f32⟩
  | 87 => ⟨S64x64, .f32⟩
  | 88 => ⟨S100000x64, .f32⟩
  | 89 => ⟨S100000x64, .f32⟩
  | 90 => ⟨S100000x64, .f32⟩
  | 91 => ⟨S_, .i32⟩
  | 92 => ⟨S1600000, .i32⟩
  | 93 => ⟨S1600000, .i1⟩
  | 94 => ⟨S_, .i32⟩
  | 95 => ⟨S1600000, .i32⟩
  | 96 => ⟨S1600000, .i32⟩
  | 97 => ⟨S1600000, .i32⟩
  | 98 => ⟨S1600000x1, .i32⟩
  | 99 => ⟨S1600000x64, .f32⟩
  | 100 => ⟨S_, .f32⟩
  | 101 => ⟨S200000x64, .f32⟩
  | 102 => ⟨S1600000x1, .i32⟩
  | 103 => ⟨S200000x64, .f32⟩
  | 104 => ⟨S_, .f32⟩
  | 105 => ⟨S1600000, .f32⟩
  | 106 => ⟨S_, .f32⟩
  | 107 => ⟨S200000, .f32⟩
  | 108 => ⟨S1600000x1, .i32⟩
  | 109 => ⟨S200000, .f32⟩
  | 110 => ⟨S_, .f32⟩
  | 111 => ⟨S200000, .f32⟩
  | 112 => ⟨S200000, .f32⟩
  | 113 => ⟨S200000x1, .f32⟩
  | 114 => ⟨S200000x64, .f32⟩
  | 115 => ⟨S200000x64, .f32⟩
  | 116 => ⟨S64x64, .f32⟩
  | 117 => ⟨S200000x64, .f32⟩
  | 118 => ⟨S1x64, .f32⟩
  | 119 => ⟨S200000x64, .f32⟩
  | 120 => ⟨S200000x64, .f32⟩
  | 121 => ⟨S64x64, .f32⟩
  | 122 => ⟨S200000x64, .f32⟩
  | 123 => ⟨S200000x64, .f32⟩
  | 124 => ⟨S_, .f32⟩
  | 125 => ⟨S100000x64, .f32⟩
  | 126 => ⟨S100000x64, .f32⟩
  | 127 => ⟨S_, .f32⟩
  | _ => ⟨S200000x64, .f32⟩

abbrev hbmTy0_1 (i : Nat) : BufTy := match i % 128 with
  | 0 => ⟨S200000x64, .f32⟩
  | 1 => ⟨S200000x64, .f32⟩
  | _ => ⟨S200000x64, .f32⟩

abbrev hbmTy (i : Nat) : BufTy := match i / 128 with
  | 0 => hbmTy0_0 i
  | 1 => hbmTy0_1 i
  | _ => ⟨S200000x64, .f32⟩

abbrev bufTy : (tb : Table) → Fin (tcTables nBuf tb) → BufTy
  | .hbm, ⟨i, _⟩ => hbmTy i
  | _, _ => ⟨S200000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_c : Ref sig .tc := ⟨.hbm, 15, rfl⟩
abbrev main_v0 : Ref sig .tc := ⟨.hbm, 16, rfl⟩
abbrev main_v1 : Ref sig .tc := ⟨.hbm, 17, rfl⟩
abbrev main_c_0 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_c_1 : Ref sig .tc := ⟨.hbm, 24, rfl⟩
abbrev main_v7 : Ref sig .tc := ⟨.hbm, 25, rfl⟩
abbrev main_v8 : Ref sig .tc := ⟨.hbm, 26, rfl⟩
abbrev main_c_2 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_cst : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_cst_3 : Ref sig .tc := ⟨.hbm, 37, rfl⟩
abbrev main_v17 : Ref sig .tc := ⟨.hbm, 38, rfl⟩
abbrev main_cst_4 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_cst_5 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_c_6 : Ref sig .tc := ⟨.hbm, 57, rfl⟩
abbrev main_v34 : Ref sig .tc := ⟨.hbm, 58, rfl⟩
abbrev main_v35 : Ref sig .tc := ⟨.hbm, 59, rfl⟩
abbrev main_c_7 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_cst_8 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_cst_9 : Ref sig .tc := ⟨.hbm, 70, rfl⟩
abbrev main_v44 : Ref sig .tc := ⟨.hbm, 71, rfl⟩
abbrev main_cst_10 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_cst_11 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_c_12 : Ref sig .tc := ⟨.hbm, 91, rfl⟩
abbrev main_v62 : Ref sig .tc := ⟨.hbm, 92, rfl⟩
abbrev main_v63 : Ref sig .tc := ⟨.hbm, 93, rfl⟩
abbrev main_c_13 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_cst_14 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_cst_15 : Ref sig .tc := ⟨.hbm, 104, rfl⟩
abbrev main_v72 : Ref sig .tc := ⟨.hbm, 105, rfl⟩
abbrev main_cst_16 : Ref sig .tc := ⟨.hbm, 106, rfl⟩
abbrev main_v73 : Ref sig .tc := ⟨.hbm, 107, rfl⟩
abbrev main_v74 : Ref sig .tc := ⟨.hbm, 108, rfl⟩
abbrev main_v75 : Ref sig .tc := ⟨.hbm, 109, rfl⟩
abbrev main_cst_17 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩
abbrev main_v84 : Ref sig .tc := ⟨.hbm, 119, rfl⟩
abbrev main_v85 : Ref sig .tc := ⟨.hbm, 120, rfl⟩
abbrev main_v86 : Ref sig .tc := ⟨.hbm, 121, rfl⟩
abbrev main_v87 : Ref sig .tc := ⟨.hbm, 122, rfl⟩
abbrev main_v88 : Ref sig .tc := ⟨.hbm, 123, rfl⟩
abbrev main_call0_cst : Ref sig .tc := ⟨.hbm, 124, rfl⟩
abbrev main_call0_v0 : Ref sig .tc := ⟨.hbm, 125, rfl⟩
abbrev main_v89 : Ref sig .tc := ⟨.hbm, 126, rfl⟩
abbrev main_call1_cst : Ref sig .tc := ⟨.hbm, 127, rfl⟩
abbrev main_call1_v0 : Ref sig .tc := ⟨.hbm, 128, rfl⟩
abbrev main_v90 : Ref sig .tc := ⟨.hbm, 129, rfl⟩

abbrev nD : Nat := 1
abbrev τ : Topo := Topo.v7x

variable {F : FTy → Type} [FloatOps F]

class Facts₀ : Prop where
  bcast_S_S100000 : S_.BroadcastsInDim S100000 (![] : Fin 0 → Fin S100000.rank)
  bcast_S100000_S100000x1_0 : S100000.BroadcastsInDim S100000x1 (![0] : Fin 1 → Fin S100000x1.rank)
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x64 : S_.BroadcastsInDim S100000x64 (![] : Fin 0 → Fin S100000x64.rank)
  bcast_S100000x1_S100000x64_0_1 : S100000x1.BroadcastsInDim S100000x64 (![0, 1] : Fin 2 → Fin S100000x64.rank)
  transposes_S64x64_S64x64_1_0 : S64x64.Transposes [1, 0] S64x64
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S800000 : S_.BroadcastsInDim S800000 (![] : Fin 0 → Fin S800000.rank)
  bcast_S800000_S800000x1_0 : S800000.BroadcastsInDim S800000x1 (![0] : Fin 1 → Fin S800000x1.rank)
  bcast_S_S200000x64 : S_.BroadcastsInDim S200000x64 (![] : Fin 0 → Fin S200000x64.rank)
  bcast_S_S200000 : S_.BroadcastsInDim S200000 (![] : Fin 0 → Fin S200000.rank)
  bcast_S200000_S200000x1_0 : S200000.BroadcastsInDim S200000x1 (![0] : Fin 1 → Fin S200000x1.rank)
  bcast_S200000x1_S200000x64_0_1 : S200000x1.BroadcastsInDim S200000x64 (![0, 1] : Fin 2 → Fin S200000x64.rank)
  bcast_S1x64_S200000x64_0_1 : S1x64.BroadcastsInDim S200000x64 (![0, 1] : Fin 2 → Fin S200000x64.rank)
  gather_S100000x64_S100000x1_S100000x64_1_0_n_n_0_1_164_wf : GatherDims.WF S100000x64 S100000x1 S100000x64 [1] [0] [] [0] [] 1 ![1, 64]
  gather_S200000x64_S1600000x1_S1600000x64_1_0_n_n_0_1_164_wf : GatherDims.WF S200000x64 S1600000x1 S1600000x64 [1] [0] [] [0] [] 1 ![1, 64]
  scatter_S100000x64_S1600000x1_S1600000x64_1_0_0_1_wf : ScatterDims.WF S100000x64 S1600000x1 S1600000x64 [1] [0] [0] 1
  scatter_S100000_S1600000x1_S1600000_n_0_0_1_wf : ScatterDims.WF S100000 S1600000x1 S1600000 [] [0] [0] 1
  dot_S100000x64_S64x64_S100000x64_1_0_0_1_n_n_wf : DotDims.WF S100000x64 S64x64 S100000x64 [1] [0] [0] [1] [] []
  gather_S100000x64_S800000x1_S800000x64_1_0_n_n_0_1_164_wf : GatherDims.WF S100000x64 S800000x1 S800000x64 [1] [0] [] [0] [] 1 ![1, 64]
  scatter_S100000x64_S800000x1_S800000x64_1_0_0_1_wf : ScatterDims.WF S100000x64 S800000x1 S800000x64 [1] [0] [0] 1
  scatter_S100000_S800000x1_S800000_n_0_0_1_wf : ScatterDims.WF S100000 S800000x1 S800000 [] [0] [0] 1
  gather_S100000x64_S1600000x1_S1600000x64_1_0_n_n_0_1_164_wf : GatherDims.WF S100000x64 S1600000x1 S1600000x64 [1] [0] [] [0] [] 1 ![1, 64]
  scatter_S200000x64_S1600000x1_S1600000x64_1_0_0_1_wf : ScatterDims.WF S200000x64 S1600000x1 S1600000x64 [1] [0] [0] 1
  scatter_S200000_S1600000x1_S1600000_n_0_0_1_wf : ScatterDims.WF S200000 S1600000x1 S1600000 [] [0] [0] 1
  dot_S200000x64_S64x64_S200000x64_1_0_0_1_n_n_wf : DotDims.WF S200000x64 S64x64 S200000x64 [1] [0] [0] [1] [] []

variable [Facts₀]

def gather_S100000x64_S100000x1_S100000x64_1_0_n_n_0_1_164 : GatherDims S100000x64 S100000x1 S100000x64 where
  offsetDims := [1]
  collapsedSliceDims := [0]
  operandBatchingDims := []
  startIndicesBatchingDims := []
  startIndexMap := [0]
  indexVectorDim := 1
  sliceSizes := ![1, 64]
  wf := gather_S100000x64_S100000x1_S100000x64_1_0_n_n_0_1_164_wf
def gather_S200000x64_S1600000x1_S1600000x64_1_0_n_n_0_1_164 : GatherDims S200000x64 S1600000x1 S1600000x64 where
  offsetDims := [1]
  collapsedSliceDims := [0]
  operandBatchingDims := []
  startIndicesBatchingDims := []
  startIndexMap := [0]
  indexVectorDim := 1
  sliceSizes := ![1, 64]
  wf := gather_S200000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def gather_S100000x64_S800000x1_S800000x64_1_0_n_n_0_1_164 : GatherDims S100000x64 S800000x1 S800000x64 where
  offsetDims := [1]
  collapsedSliceDims := [0]
  operandBatchingDims := []
  startIndicesBatchingDims := []
  startIndexMap := [0]
  indexVectorDim := 1
  sliceSizes := ![1, 64]
  wf := gather_S100000x64_S800000x1_S800000x64_1_0_n_n_0_1_164_wf
def scatter_S100000x64_S800000x1_S800000x64_1_0_0_1 : ScatterDims S100000x64 S800000x1 S800000x64 where
  updateWindowDims := [1]
  insertedWindowDims := [0]
  scatterDimsToOperandDims := [0]
  indexVectorDim := 1
  wf := scatter_S100000x64_S800000x1_S800000x64_1_0_0_1_wf
def scatter_S100000_S800000x1_S800000_n_0_0_1 : ScatterDims S100000 S800000x1 S800000 where
  updateWindowDims := []
  insertedWindowDims := [0]
  scatterDimsToOperandDims := [0]
  indexVectorDim := 1
  wf := scatter_S100000_S800000x1_S800000_n_0_0_1_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S200000x64_S1600000x1_S1600000x64_1_0_0_1 : ScatterDims S200000x64 S1600000x1 S1600000x64 where
  updateWindowDims := [1]
  insertedWindowDims := [0]
  scatterDimsToOperandDims := [0]
  indexVectorDim := 1
  wf := scatter_S200000x64_S1600000x1_S1600000x64_1_0_0_1_wf
def scatter_S200000_S1600000x1_S1600000_n_0_0_1 : ScatterDims S200000 S1600000x1 S1600000 where
  updateWindowDims := []
  insertedWindowDims := [0]
  scatterDimsToOperandDims := [0]
  indexVectorDim := 1
  wf := scatter_S200000_S1600000x1_S1600000_n_0_0_1_wf
def dot_S200000x64_S64x64_S200000x64_1_0_0_1_n_n : DotDims S200000x64 S64x64 S200000x64 where
  lhsContracting := [1]
  rhsContracting := [0]
  lhsNonContracting := [0]
  rhsNonContracting := [1]
  lhsBatch := []
  rhsBatch := []
  wf := dot_S200000x64_S64x64_S200000x64_1_0_0_1_n_n_wf

class Facts : Prop extends Facts₀ where

variable [Facts]
-- ==== Proof.KernelRun.lean ====
/-
  The kernel program's run with its two results kept.

  The program is a stretch of host operations followed by two kernel regions.  Its run ends with every buffer that
  outlives a region holding the contents at the last boundary: the launch contents pushed through the host
  operations, then each region's arrays replaced by what its write-backs leave.  The frame statement keeps of this only
  that the arguments are unchanged; here the same run is stated keeping also the two result buffers, each at the last
  boundary's contents, which the value modules then read as functions of the arguments.
-/
import proofs.«156364_j84043920048593_1_alg».proof.Proof.Gen.KernelIdeal.Frame

set_option maxRecDepth 16384

noncomputable section

namespace Cert.KernelIdeal.KernelRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting, with the label result and the title
    result at the last boundary's contents and the arguments as launched. -/
theorem run_results : θ_run defs (onTc (τ := τ) (main (F := F))) ⟨m, fun _ => 0, ρ⟩ (fun r => ∀ c : Dev nD,
      r.2.mem ((c.tc : Thread nD τ).loc main_v72) = W3 m ρ c (Proc.devRef .tc main_v72)
      ∧ r.2.mem ((c.tc : Thread nD τ).loc main_v73) = W3 m ρ c (Proc.devRef .tc main_v73)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c =>
      ⟨h c _ (mem_uc main_v72 (by decide)),
       h c _ (mem_uc main_v73 (by decide)),
       (h c _ (mem_uc main_arg0 (by decide))).trans (W3_main_arg0 m ρ c),
       (h c _ (mem_uc main_arg1 (by decide))).trans (W3_main_arg1 m ρ c),
       (h c _ (mem_uc main_arg2 (by decide))).trans (W3_main_arg2 m ρ c),
       (h c _ (mem_uc main_arg3 (by decide))).trans (W3_main_arg3 m ρ c),
       (h c _ (mem_uc main_arg4 (by decide))).trans (W3_main_arg4 m ρ c),
       (h c _ (mem_uc main_arg5 (by decide))).trans (W3_main_arg5 m ρ c),
       (h c _ (mem_uc main_arg6 (by decide))).trans (W3_main_arg6 m ρ c),
       (h c _ (mem_uc main_arg7 (by decide))).trans (W3_main_arg7 m ρ c),
       (h c _ (mem_uc main_arg8 (by decide))).trans (W3_main_arg8 m ρ c),
       (h c _ (mem_uc main_arg9 (by decide))).trans (W3_main_arg9 m ρ c),
       (h c _ (mem_uc main_arg10 (by decide))).trans (W3_main_arg10 m ρ c),
       (h c _ (mem_uc main_arg11 (by decide))).trans (W3_main_arg11 m ρ c),
       (h c _ (mem_uc main_arg12 (by decide))).trans (W3_main_arg12 m ρ c),
       (h c _ (mem_uc main_arg13 (by decide))).trans (W3_main_arg13 m ρ c),
       (h c _ (mem_uc main_arg14 (by decide))).trans (W3_main_arg14 m ρ c)⟩)

end Cert.KernelIdeal.KernelRun

end
-- ==== Proof.LibMatmulZero.lean ====
/-
  A kernel matrix product into a zero accumulator, read at an index.

  The matrix unit's product of an m×k block by a k×n block, contracting the first operand's second axis with the
  second operand's first axis and with no batch axis, accumulated into the all-zero block, read at row `a` and column
  `b` at the exact instance, is the sum over the contracted coordinate `c` of the products of the entries `(a, c)`
  and `(c, b)`: the zero it starts from is the additive unit of the extended reals, and no rounding or chunk order is
  left.  Stated for the record spelt out with its well-formedness evidence as a variable, which is the shape a printed
  program's product records take once unfolded.
-/
import Idealize.ShloMosaic.Lib.ValueIdx
import Idealize.ShloMosaic.Lib.Pipeline.Value
import Idealize.ShloMosaic.PureOps.Ideal.Laws

noncomputable section

namespace Cert.LibMatmulZero

open Idealize.ShloMosaic Idealize.ShloMosaic.ValueIdx

/-- The product of an m×k by a k×n block into the zero block, at `(a, b)`, is `∑ c, A (a, c) * B (c, b)`. -/
theorem matmulZero_nn_apply {m k n : Nat} {φ₁ φ₂ : FTy}
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂)
    (a : Fin m) (b : Fin n) :
    matmul (⟨[1], [0], [0], [1], [], [], w⟩ : DotDims ⟨2, ![m, k]⟩ ⟨2, ![k, n]⟩ ⟨2, ![m, n]⟩) prec A B
        (constant (F := Ideal) ⟨2, ![m, n]⟩ .f32 0x00000000#32) (ix2 a b)
      = ∑ c : Fin k, A (ix2 a c) * B (ix2 c b) := by
  show FloatOps.matmul _ prec A B (constant (F := Ideal) ⟨2, ![m, n]⟩ .f32 0x00000000#32) (ix2 a b) = _
  rw [Ideal.matmul_constant_zero_apply,
    ← Equiv.sum_comp (contrEquiv1 (⟨[1], [0], [0], [1], [], [], w⟩ : DotDims ⟨2, ![m, k]⟩ ⟨2, ![k, n]⟩ ⟨2, ![m, n]⟩) k rfl rfl).symm]
  refine Finset.sum_congr rfl fun c _ => ?_
  have c2 := contrEquiv1_symm_val (⟨[1], [0], [0], [1], [], [], w⟩ : DotDims ⟨2, ![m, k]⟩ ⟨2, ![k, n]⟩ ⟨2, ![m, n]⟩) k rfl rfl c
  have l2 : (⟨[1], [0], [0], [1], [], [], w⟩ : DotDims ⟨2, ![m, k]⟩ ⟨2, ![k, n]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

end Cert.LibMatmulZero

end
-- ==== Proof.SageSpec.lean ====
/-
  The mathematics of one mean-aggregation graph-convolution layer, written once for both programs.

  A relation contributes to destination node `r`, output feature `j`, the number

      (∑ k, A (r, k) * Wt (k, j) + b j) + ∑ k, X (r, k) * Vt (k, j)

  where `A` holds the mean of the neighbours' features of node `r`, `X` the node's own features, `Wt` and `Vt` the
  two weight matrices already transposed (so that the contracted axis is the first one), and `b` the bias.  A node
  type that receives two relations adds their two contributions; the layer's output is the positive part of the total.
  Everything is read on the extended reals, where sums and products are exact; no law beyond the definitions is used,
  because both programs add the terms in this very grouping.
-/
import Idealize.ShloMosaic.Lib.ValueIdx
import Idealize.ShloMosaic.PureOps.Ideal

noncomputable section

namespace Cert.Sage

open Idealize.ShloMosaic Idealize.ShloMosaic.ValueIdx

/-- One relation's contribution at destination row `r`, feature `j`: aggregated neighbours through `Wt`, plus the
    bias, plus the node's own features through `Vt`. -/
def rel {n : Nat} (A X : (⟨2, ![n, 64]⟩ : Shape).Idx → EReal) (Wt Vt : (⟨2, ![64, 64]⟩ : Shape).Idx → EReal)
    (b : (⟨1, ![64]⟩ : Shape).Idx → EReal) (r : Fin n) (j : Fin 64) : EReal :=
  (∑ k : Fin 64, A (ix2 r k) * Wt (ix2 k j) + b (ix1 j)) + ∑ k : Fin 64, X (ix2 r k) * Vt (ix2 k j)

/-- A node type fed by two relations: the positive part of the sum of the two contributions. -/
def twoRel {n : Nat} (A₁ X A₂ : (⟨2, ![n, 64]⟩ : Shape).Idx → EReal)
    (W₁ V₁ W₂ V₂ : (⟨2, ![64, 64]⟩ : Shape).Idx → EReal) (b₁ b₂ : (⟨1, ![64]⟩ : Shape).Idx → EReal) :
    (⟨2, ![n, 64]⟩ : Shape).Idx → EReal :=
  fun i => max (rel A₁ X W₁ V₁ b₁ (i 0) (i 1) + rel A₂ X W₂ V₂ b₂ (i 0) (i 1)) 0

/-- A node type fed by one relation: the positive part of its contribution. -/
def oneRel {n : Nat} (A X : (⟨2, ![n, 64]⟩ : Shape).Idx → EReal)
    (W V : (⟨2, ![64, 64]⟩ : Shape).Idx → EReal) (b : (⟨1, ![64]⟩ : Shape).Idx → EReal) :
    (⟨2, ![n, 64]⟩ : Shape).Idx → EReal :=
  fun i => max (rel A X W V b (i 0) (i 1)) 0

/-- A contribution depends on the matrices only through row `r`: if two pairs of matrices agree on that row (here,
    row `r'` of larger ones), the contributions agree. -/
theorem rel_congr {n n' : Nat} (A X : (⟨2, ![n, 64]⟩ : Shape).Idx → EReal) (A' X' : (⟨2, ![n', 64]⟩ : Shape).Idx → EReal)
    (Wt Vt : (⟨2, ![64, 64]⟩ : Shape).Idx → EReal) (b : (⟨1, ![64]⟩ : Shape).Idx → EReal) (r : Fin n) (r' : Fin n') (j : Fin 64)
    (hA : ∀ k : Fin 64, A (ix2 r k) = A' (ix2 r' k)) (hX : ∀ k : Fin 64, X (ix2 r k) = X' (ix2 r' k)) :
    rel A X Wt Vt b r j = rel A' X' Wt Vt b r' j := by
  unfold rel
  have e₁ : (∑ k : Fin 64, A (ix2 r k) * Wt (ix2 k j)) = ∑ k : Fin 64, A' (ix2 r' k) * Wt (ix2 k j) :=
    Finset.sum_congr rfl fun k _ => by rw [hA k]
  have e₂ : (∑ k : Fin 64, X (ix2 r k) * Vt (ix2 k j)) = ∑ k : Fin 64, X' (ix2 r' k) * Vt (ix2 k j) :=
    Finset.sum_congr rfl fun k _ => by rw [hX k]
  rw [e₁, e₂]

end Cert.Sage

end
-- ==== Proof.Bodies.lean ====
/-
  What the two kernel bodies store, read at one entry.

  The label-node body loads a block of 10000 destination rows of each of the three feature matrices (mean of title
  neighbours, own features, mean of label neighbours), the four transposed weight matrices and the two biases, and
  stores the positive part of

      ((A₁·W₁ + b₁) + X·V₁) + ((A₂·W₂ + b₂) + X·V₂).

  Each product is a matrix product into a zero accumulator, so at entry `(r, j)` it is the plain sum over the
  contracted coordinate; narrowing an operand to a shorter float format changes nothing on the extended reals; a bias
  is laid out as a one-row matrix and repeated down the rows, so at `(r, j)` it is `b j`.  The entry is therefore
  the two-relation formula of the specification, at the block's own row `r`.  The title-node body is the same with
  one relation: the positive part of `(A·W + b) + X·V`.
-/
import proofs.«156364_j84043920048593_1_alg».proof.Proof.Gen.KernelIdeal.Skeleton
import proofs.«156364_j84043920048593_1_alg».proof.Proof.LibMatmulZero
import proofs.«156364_j84043920048593_1_alg».proof.Proof.SageSpec
import Idealize.ShloMosaic.Lib.ValueIdx
import Idealize.ShloMosaic.Lib.ValueLayout
import Idealize.ShloMosaic.Lib.Pipeline.Value

noncomputable section

namespace Cert.KernelIdeal.Body

open Idealize.ShloMosaic Idealize.ShloMosaic.ValueIdx Cert.KernelIdeal Cert.KernelIdeal.Gen

/-- A bias laid out as one row and repeated down 10000 rows reads, at `(r, j)`, `b j`. -/
theorem biasRows_apply (b : Vec Ideal S64 .f32) (r : Fin 10000) (j : Fin 64) :
    broadcastTo S10000x64 (shapeCast S1x64 b shapeCasts_S64_S1x64 : FVec Ideal S1x64 .f32) broadcasts_S1x64_S10000x64 (ix2 r j) = b (ix1 j) :=
  (broadcastTo_1b_ab_apply _ broadcasts_S1x64_S10000x64 r j).trans (shapeCast_a_1a_apply b shapeCasts_S64_S1x64 0 j)

/-- A block of rows narrowed to the short format and multiplied into the zero accumulator by a weight matrix reads,
    at `(r, j)`, the sum over `k` of row `r` of the block against column `j` of the weights. -/
theorem product_apply (A : Vec Ideal S10000x64 .f32) (W : Vec Ideal S64x64 .bf16) (r : Fin 10000) (j : Fin 64) :
    matmul (F := Ideal) dot_S10000x64_S64x64_S10000x64_1_0_0_1_n_n none
        (truncf (F := Ideal) .bf16 (shapeCast S10000x64 A shapeCasts_S10000x64_S10000x64 : FVec Ideal S10000x64 .f32) bitsLt_bf16_f32)
        (shapeCast S64x64 W shapeCasts_S64x64_S64x64 : FVec Ideal S64x64 .bf16) (constant (F := Ideal) S10000x64 .f32 0x00000000#32) (ix2 r j)
      = ∑ k : Fin 64, A (ix2 r k) * W (ix2 k j) := by
  rw [shapeCast_self, shapeCast_self]
  exact Cert.LibMatmulZero.matmulZero_nn_apply (m := 10000) (k := 64) (n := 64)
    _ none (truncf (F := Ideal) .bf16 (A : FVec Ideal S10000x64 .f32) bitsLt_bf16_f32) (W : FVec Ideal S64x64 .bf16) r j

/-- THE LABEL BODY'S STORED VALUE at `(r, j)` is the two-relation formula at the block's row `r`. -/
theorem label_payload_apply (a₁ x a₂ : Vec Ideal S10000x64 .f32) (w₁ v₁ w₂ v₂ : Vec Ideal S64x64 .bf16)
    (b₁ b₂ : Vec Ideal S64 .f32) (r : Fin 10000) (j : Fin 64) :
    k0_pay1 a₁ x a₂ w₁ v₁ w₂ v₂ b₁ b₂ (ix2 r j) = Cert.Sage.twoRel a₁ x a₂ w₁ v₁ w₂ v₂ b₁ b₂ (ix2 r j) := by
  unfold k0_pay1
  show max ((((matmul dot_S10000x64_S64x64_S10000x64_1_0_0_1_n_n none _ _ _ (ix2 r j)
        + broadcastTo S10000x64 _ broadcasts_S1x64_S10000x64 (ix2 r j))
        + matmul dot_S10000x64_S64x64_S10000x64_1_0_0_1_n_n none _ _ _ (ix2 r j)))
      + ((matmul dot_S10000x64_S64x64_S10000x64_1_0_0_1_n_n none _ _ _ (ix2 r j)
        + broadcastTo S10000x64 _ broadcasts_S1x64_S10000x64 (ix2 r j))
        + matmul dot_S10000x64_S64x64_S10000x64_1_0_0_1_n_n none _ _ _ (ix2 r j)))
      (Ideal.ofBits .f32 0x00000000#32) = _
  rw [product_apply a₁ w₁ r j, product_apply x v₁ r j, product_apply a₂ w₂ r j, product_apply x v₂ r j,
    biasRows_apply b₁ r j, biasRows_apply b₂ r j, Ideal.ofBits_zero_f32]
  rfl

/-- The same product when the block of rows is narrowed without an intervening (trivial) reshape. -/
theorem product_apply' (A : Vec Ideal S10000x64 .f32) (W : Vec Ideal S64x64 .bf16) (r : Fin 10000) (j : Fin 64) :
    matmul (F := Ideal) dot_S10000x64_S64x64_S10000x64_1_0_0_1_n_n none
        (truncf (F := Ideal) .bf16 (A : FVec Ideal S10000x64 .f32) bitsLt_bf16_f32)
        (shapeCast S64x64 W shapeCasts_S64x64_S64x64 : FVec Ideal S64x64 .bf16) (constant (F := Ideal) S10000x64 .f32 0x00000000#32) (ix2 r j)
      = ∑ k : Fin 64, A (ix2 r k) * W (ix2 k j) := by
  rw [shapeCast_self]
  exact Cert.LibMatmulZero.matmulZero_nn_apply (m := 10000) (k := 64) (n := 64)
    _ none (truncf (F := Ideal) .bf16 (A : FVec Ideal S10000x64 .f32) bitsLt_bf16_f32) (W : FVec Ideal S64x64 .bf16) r j

/-- THE TITLE BODY'S STORED VALUE at `(r, j)` is the one-relation formula at the block's row `r`. -/
theorem title_payload_apply (a x : Vec Ideal S10000x64 .f32) (w v : Vec Ideal S64x64 .bf16)
    (b : Vec Ideal S64 .f32) (r : Fin 10000) (j : Fin 64) :
    k1_pay1 a x w v b (ix2 r j) = Cert.Sage.oneRel a x w v b (ix2 r j) := by
  unfold k1_pay1
  show max ((matmul dot_S10000x64_S64x64_S10000x64_1_0_0_1_n_n none _ _ _ (ix2 r j)
        + broadcastTo S10000x64 _ broadcasts_S1x64_S10000x64 (ix2 r j))
        + matmul dot_S10000x64_S64x64_S10000x64_1_0_0_1_n_n none _ _ _ (ix2 r j))
      (Ideal.ofBits .f32 0x00000000#32) = _
  rw [product_apply a w r j, product_apply' x v r j, biasRows_apply b r j, Ideal.ofBits_zero_f32]
  rfl

end Cert.KernelIdeal.Body

end
-- ==== Proof.LabelArray.lean ====
/-
  The label-node output array after its kernel has run, as one function of the arrays the kernel finds.

  The grid has 10 points; point `t` works on destination rows `10000·t … 10000·t + 9999`: it fetches those rows of
  the three feature matrices, the whole of each weight matrix and bias, and writes back those rows of the output.
  What it writes back at row `r` of its block, feature `j`, is the two-relation formula at the block's row `r`,
  which reads the feature matrices only along that row — row `10000·t + r` of the whole matrices.  So each block
  written back is the corresponding block of ONE whole-array function, the two-relation formula of the whole
  matrices; the ten blocks tile the array (row `i` lies in block `i / 10000`), hence the array ends equal to that
  function.  The arrays the kernel finds are a parameter here.
-/
import proofs.«156364_j84043920048593_1_alg».proof.Proof.Gen.KernelIdeal.Frame
import proofs.«156364_j84043920048593_1_alg».proof.Proof.Bodies
import proofs.«156364_j84043920048593_1_alg».proof.Proof.SageSpec
import Idealize.ShloMosaic.Lib.ValueIdx
import Idealize.ShloMosaic.Lib.Pipeline.Value

set_option maxRecDepth 16384

noncomputable section

namespace Cert.KernelIdeal.LabelArray

open Idealize.ShloMosaic Idealize.ShloMosaic.ValueIdx Idealize.ShloMosaic.TcCoe Idealize.SL.Sem
open Cert.KernelIdeal Cert.KernelIdeal.Gen
open Idealize.ShloMosaic.Pipeline (Dat Cfg Window)

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a; rfl

/-- The whole-array function: the two-relation formula of the arrays as the kernel finds them. -/
abbrev G (c : Dev nD) : S100000x64.Idx → Elt Ideal .f32 :=
  Cert.Sage.twoRel (n := 100000) (V c main_v25) (V c main_v6) (V c main_v44) (V c main_v65) (V c main_v67) (V c main_v69) (V c main_v71)
    (V c main_arg3) (V c main_arg6)

/-- The printed index maps over the ten grid points: the row-blocked windows (the three feature matrices and the
    output) sit at block `t` of the rows and block 0 of the features; the weights and biases at block 0. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 1) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 1) = 0
    ∧ win0_8.index t (0 : Fin 2) = 0 ∧ win0_8.index t (1 : Fin 2) = 0
    ∧ win0_9.index t (0 : Fin 2) = t.val ∧ win0_9.index t (1 : Fin 2) = 0 :=
  (by decide +kernel : ∀ t : Fin grid0.N, _)

theorem t_lt (t : Fin cfg0.N) : t.val < 10 := lt_of_lt_of_eq t.isLt N_0

/-- Row `r` of point `t`'s block of a row-blocked window is row `10000·t + r` of its array. -/
theorem row_of (t : Fin cfg0.N) (r : Fin 10000) : t.val * 10000 + r.val < 100000 := by
  have := t_lt t; have := r.isLt; omega

/-- A row-blocked feature window's block at point `t`, read at `(r, k)`, is its array at `(10000·t + r, k)`
    (stated for the three feature windows at once through their common index facts). -/
theorem rows0 (c : Dev nD) (t : Fin cfg0.N) (r : Fin 10000) (k : Fin 64) :
    iblk0 V c 0 t (ix2 r k) = V c main_v25 (ix2 ⟨t.val * 10000 + r.val, row_of t r⟩ k) := by
  obtain ⟨e0, e1, -⟩ := idx_facts t
  show V c main_v25 (((cfg0.win 0).blk t).view.emb (ix2 r k)) = _
  refine congrArg (V c main_v25) ?_
  funext a; apply Fin.ext
  match a with
  | ⟨0, _⟩ => show win0_0.index t (0 : Fin 2) * 10000 + 1 * r.val = t.val * 10000 + r.val; omega
  | ⟨1, _⟩ => show win0_0.index t (1 : Fin 2) * 64 + 1 * k.val = k.val; omega

theorem rows1 (c : Dev nD) (t : Fin cfg0.N) (r : Fin 10000) (k : Fin 64) :
    iblk0 V c 1 t (ix2 r k) = V c main_v6 (ix2 ⟨t.val * 10000 + r.val, row_of t r⟩ k) := by
  obtain ⟨-, -, e0, e1, -⟩ := idx_facts t
  show V c main_v6 (((cfg0.win 1).blk t).view.emb (ix2 r k)) = _
  refine congrArg (V c main_v6) ?_
  funext a; apply Fin.ext
  match a with
  | ⟨0, _⟩ => show win0_1.index t (0 : Fin 2) * 10000 + 1 * r.val = t.val * 10000 + r.val; omega
  | ⟨1, _⟩ => show win0_1.index t (1 : Fin 2) * 64 + 1 * k.val = k.val; omega

theorem rows2 (c : Dev nD) (t : Fin cfg0.N) (r : Fin 10000) (k : Fin 64) :
    iblk0 V c 2 t (ix2 r k) = V c main_v44 (ix2 ⟨t.val * 10000 + r.val, row_of t r⟩ k) := by
  obtain ⟨-, -, -, -, e0, e1, -⟩ := idx_facts t
  show V c main_v44 (((cfg0.win 2).blk t).view.emb (ix2 r k)) = _
  refine congrArg (V c main_v44) ?_
  funext a; apply Fin.ext
  match a with
  | ⟨0, _⟩ => show win0_2.index t (0 : Fin 2) * 10000 + 1 * r.val = t.val * 10000 + r.val; omega
  | ⟨1, _⟩ => show win0_2.index t (1 : Fin 2) * 64 + 1 * k.val = k.val; omega

/-- A weight window's block, at every point, is the whole weight matrix. -/
theorem whole3 (c : Dev nD) (t : Fin cfg0.N) : iblk0 V c 3 t = V c main_v65 := by
  obtain ⟨-, -, -, -, -, -, e0, e1, -⟩ := idx_facts t
  funext y
  show V c main_v65 (((cfg0.win 3).blk t).view.emb y) = V c main_v65 y
  refine congrArg (V c main_v65) ?_
  funext a; apply Fin.ext
  match a with
  | ⟨0, _⟩ => show win0_3.index t (0 : Fin 2) * 64 + 1 * (y 0).val = (y 0).val; omega
  | ⟨1, _⟩ => show win0_3.index t (1 : Fin 2) * 64 + 1 * (y 1).val = (y 1).val; omega

theorem whole5 (c : Dev nD) (t : Fin cfg0.N) : iblk0 V c 5 t = V c main_v67 := by
  obtain ⟨-, -, -, -, -, -, -, -, -, e0, e1, -⟩ := idx_facts t
  funext y
  show V c main_v67 (((cfg0.win 5).blk t).view.emb y) = V c main_v67 y
  refine congrArg (V c main_v67) ?_
  funext a; apply Fin.ext
  match a with
  | ⟨0, _⟩ => show win0_5.index t (0 : Fin 2) * 64 + 1 * (y 0).val = (y 0).val; omega
  | ⟨1, _⟩ => show win0_5.index t (1 : Fin 2) * 64 + 1 * (y 1).val = (y 1).val; omega

theorem whole6 (c : Dev nD) (t : Fin cfg0.N) : iblk0 V c 6 t = V c main_v69 := by
  obtain ⟨-, -, -, -, -, -, -, -, -, -, -, e0, e1, -⟩ := idx_facts t
  funext y
  show V c main_v69 (((cfg0.win 6).blk t).view.emb y) = V c main_v69 y
  refine congrArg (V c main_v69) ?_
  funext a; apply Fin.ext
  match a with
  | ⟨0, _⟩ => show win0_6.index t (0 : Fin 2) * 64 + 1 * (y 0).val = (y 0).val; omega
  | ⟨1, _⟩ => show win0_6.index t (1 : Fin 2) * 64 + 1 * (y 1).val = (y 1).val; omega

theorem whole8 (c : Dev nD) (t : Fin cfg0.N) : iblk0 V c 8 t = V c main_v71 := by
  obtain ⟨-, -, -, -, -, -, -, -, -, -, -, -, -, -, e0, e1, -⟩ := idx_facts t
  funext y
  show V c main_v71 (((cfg0.win 8).blk t).view.emb y) = V c main_v71 y
  refine congrArg (V c main_v71) ?_
  funext a; apply Fin.ext
  match a with
  | ⟨0, _⟩ => show win0_8.index t (0 : Fin 2) * 64 + 1 * (y 0).val = (y 0).val; omega
  | ⟨1, _⟩ => show win0_8.index t (1 : Fin 2) * 64 + 1 * (y 1).val = (y 1).val; omega

/-- A bias window's block, at every point, is the whole bias. -/
theorem whole4 (c : Dev nD) (t : Fin cfg0.N) : iblk0 V c 4 t = V c main_arg3 := by
  obtain ⟨-, -, -, -, -, -, -, -, e0, -⟩ := idx_facts t
  funext y
  show V c main_arg3 (((cfg0.win 4).blk t).view.emb y) = V c main_arg3 y
  refine congrArg (V c main_arg3) ?_
  funext a; apply Fin.ext
  match a with
  | ⟨0, _⟩ => show win0_4.index t (0 : Fin 1) * 64 + 1 * (y 0).val = (y 0).val; omega

theorem whole7 (c : Dev nD) (t : Fin cfg0.N) : iblk0 V c 7 t = V c main_arg6 := by
  obtain ⟨-, -, -, -, -, -, -, -, -, -, -, -, -, e0, -⟩ := idx_facts t
  funext y
  show V c main_arg6 (((cfg0.win 7).blk t).view.emb y) = V c main_arg6 y
  refine congrArg (V c main_arg6) ?_
  funext a; apply Fin.ext
  match a with
  | ⟨0, _⟩ => show win0_7.index t (0 : Fin 1) * 64 + 1 * (y 0).val = (y 0).val; omega

/-- Entry `(r, j)` of point `t`'s output block is entry `(10000·t + r, j)` of the output array. -/
theorem out_emb (t : Fin cfg0.N) (r : Fin 10000) (j : Fin 64) :
    ((cfg0.win 9).blk t).view.emb (ix2 r j) = (ix2 ⟨t.val * 10000 + r.val, row_of t r⟩ j : S100000x64.Idx) := by
  obtain ⟨-, -, -, -, -, -, -, -, -, -, -, -, -, -, -, -, e0, e1⟩ := idx_facts t
  funext a; apply Fin.ext
  match a with
  | ⟨0, _⟩ => show win0_9.index t (0 : Fin 2) * 10000 + 1 * r.val = t.val * 10000 + r.val; omega
  | ⟨1, _⟩ => show win0_9.index t (1 : Fin 2) * 64 + 1 * j.val = j.val; omega

/-- WHAT POINT `t` STORES at `(r, j)` of its block is the whole-array function at `(10000·t + r, j)`: the body's
    formula reads the feature blocks along row `r` only, and those rows are rows `10000·t + r` of the arrays. -/
theorem point_eq (c : Dev nD) (t : Fin cfg0.N) (r : Fin 10000) (j : Fin 64) :
    k0_pay1 (iblk0 V c 0 t) (iblk0 V c 1 t) (iblk0 V c 2 t) (iblk0 V c 3 t) (iblk0 V c 5 t) (iblk0 V c 6 t)
        (iblk0 V c 8 t) (iblk0 V c 4 t) (iblk0 V c 7 t) (ix2 r j)
      = G V c (ix2 ⟨t.val * 10000 + r.val, row_of t r⟩ j) := by
  rw [Cert.KernelIdeal.Body.label_payload_apply (iblk0 V c 0 t) (iblk0 V c 1 t) (iblk0 V c 2 t) (iblk0 V c 3 t)
    (iblk0 V c 5 t) (iblk0 V c 6 t) (iblk0 V c 8 t) (iblk0 V c 4 t) (iblk0 V c 7 t) r j,
    whole3 V c t, whole5 V c t, whole6 V c t, whole8 V c t, whole4 V c t, whole7 V c t]
  show max (Cert.Sage.rel _ _ _ _ _ r j + Cert.Sage.rel _ _ _ _ _ r j) 0
    = max (Cert.Sage.rel _ _ _ _ _ (⟨t.val * 10000 + r.val, row_of t r⟩ : Fin 100000) j
      + Cert.Sage.rel _ _ _ _ _ (⟨t.val * 10000 + r.val, row_of t r⟩ : Fin 100000) j) 0
  rw [Cert.Sage.rel_congr (iblk0 V c 0 t) (iblk0 V c 1 t) (V c main_v25) (V c main_v6) _ _ _ r ⟨t.val * 10000 + r.val, row_of t r⟩ j
      (rows0 V c t r) (rows1 V c t r),
    Cert.Sage.rel_congr (iblk0 V c 2 t) (iblk0 V c 1 t) (V c main_v44) (V c main_v6) _ _ _ r ⟨t.val * 10000 + r.val, row_of t r⟩ j
      (rows2 V c t r) (rows1 V c t r)]

/-- WHAT POINT `t` WRITES BACK is block `t` of the whole-array function. -/
theorem flushed_eq (c : Dev nD) (t : Fin cfg0.N) :
    (dat0 V c).flushed 9 t = ((cfg0.win 9).blk t).view.read (Elt Ideal) (G V c) := by
  show (cfg0.win 9).cut (grid0.coords t) ((dat0 V c).after 9 t) = _
  rw [after0_9]
  unfold out0_9
  rw [View.canon_unit_zero hz2]
  simp only [View.ld_unit_zero (S := S10000x64) hz2, View.ld_unit_zero (S := S64x64) hz2, View.ld_unit_zero (S := S64) hz1]
  funext y
  obtain ⟨r, j, rfl⟩ : ∃ (r : Fin 10000) (j : Fin 64), y = ix2 r j := ⟨y 0, y 1, eq_ix2 y⟩
  show _ = G V c (((cfg0.win 9).blk t).view.emb (ix2 r j))
  rw [out_emb t r j]
  exact point_eq V c t r j

/-- An index of the output array is in point `t`'s block iff each coordinate is in the block's range on its axis. -/
theorem mem_blk (t : Fin cfg0.N) (i : S100000x64.Idx) :
    i ∈ ((cfg0.win 9).blk t).view.set ↔ ∀ a : Fin 2, win0_9.index t a * S10000x64.size a ≤ (i a).val
      ∧ (i a).val < win0_9.index t a * S10000x64.size a + S10000x64.size a := by
  show i ∈ ((View.whole main_v72).slice (win0_9.rect t)).set ↔ _
  rw [View.set_slice_whole, Rect.mem_set_unit]
  exact Iff.rfl

/-- Every entry of the output array lies in some point's block: row `i` in block `i / 10000`. -/
theorem cover (i : S100000x64.Idx) :
    ∃ t : Fin cfg0.N, (cfg0.win 9).flush t = true ∧ i ∈ ((cfg0.win 9).blk t).view.set := by
  have hi0 : (i 0).val < 100000 := (i 0).isLt
  have hi1 : (i 1).val < 64 := (i 1).isLt
  let t : Fin cfg0.N := ⟨(i 0).val / 10000, lt_of_lt_of_eq (by omega : (i 0).val / 10000 < 10) N_0.symm⟩
  obtain ⟨-, -, -, -, -, -, -, -, -, -, -, -, -, -, -, -, e0, e1⟩ := idx_facts t
  have e0' : win0_9.index t (0 : Fin 2) = (i 0).val / 10000 := e0
  refine ⟨t, flush0_9 t, ?_⟩
  rw [mem_blk]
  intro a
  match a with
  | ⟨0, _⟩ => show win0_9.index t (0 : Fin 2) * 10000 ≤ (i 0).val ∧ (i 0).val < win0_9.index t (0 : Fin 2) * 10000 + 10000; omega
  | ⟨1, _⟩ => show win0_9.index t (1 : Fin 2) * 64 ≤ (i 1).val ∧ (i 1).val < win0_9.index t (1 : Fin 2) * 64 + 64; omega

/-- THE OUTPUT ARRAY after the region: the two-relation formula of the arrays as the kernel finds them. -/
theorem final (c : Dev nD) : (dat0 V c).arrAt 9 cfg0.N = G V c :=
  (dat0 V c).arrAt_eq_of_cover 9 (G V c) (fun t _ => flushed_eq V c t) cover

end Cert.KernelIdeal.LabelArray

end
-- ==== Proof.TitleArray.lean ====
/-
  The title-node output array after its kernel has run, as one function of the arrays the kernel finds.

  The grid has 20 points; point `t` works on destination rows `10000·t … 10000·t + 9999` of the 200000 title nodes:
  it fetches those rows of the aggregated label features and of the titles' own features, the whole of the two
  weight matrices and the bias, and writes back those rows of the output.  What it writes at row `r` of its block
  is the one-relation formula at the block's row `r`, which reads the feature matrices along that row only — row
  `10000·t + r` of the whole matrices.  The twenty blocks tile the array, so the array ends equal to the one-relation
  formula of the whole matrices.  The arrays the kernel finds are a parameter here.
-/
import proofs.«156364_j84043920048593_1_alg».proof.Proof.Gen.KernelIdeal.Frame
import proofs.«156364_j84043920048593_1_alg».proof.Proof.Bodies
import proofs.«156364_j84043920048593_1_alg».proof.Proof.SageSpec
import Idealize.ShloMosaic.Lib.ValueIdx
import Idealize.ShloMosaic.Lib.Pipeline.Value

set_option maxRecDepth 16384

noncomputable section

namespace Cert.KernelIdeal.TitleArray

open Idealize.ShloMosaic Idealize.ShloMosaic.ValueIdx Idealize.ShloMosaic.TcCoe Idealize.SL.Sem
open Cert.KernelIdeal Cert.KernelIdeal.Gen
open Idealize.ShloMosaic.Pipeline (Dat Cfg Window)

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a; rfl

/-- The whole-array function: the one-relation formula of the arrays as the kernel finds them. -/
abbrev G (c : Dev nD) : S200000x64.Idx → Elt Ideal .f32 :=
  Cert.Sage.oneRel (n := 200000) (V c main_v63) (V c main_arg0) (V c main_v65) (V c main_v67) (V c main_arg3)

/-- The printed index maps over the twenty grid points: the row-blocked windows sit at block `t` of the rows and
    block 0 of the features; the weights and the bias at block 0. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 1) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

theorem t_lt (t : Fin cfg1.N) : t.val < 20 := lt_of_lt_of_eq t.isLt N_1

theorem row_of (t : Fin cfg1.N) (r : Fin 10000) : t.val * 10000 + r.val < 200000 := by
  have := t_lt t; have := r.isLt; omega

/-- A row-blocked feature window's block at point `t`, read at `(r, k)`, is its array at `(10000·t + r, k)`. -/
theorem rows0 (c : Dev nD) (t : Fin cfg1.N) (r : Fin 10000) (k : Fin 64) :
    iblk1 V c 0 t (ix2 r k) = V c main_v63 (ix2 ⟨t.val * 10000 + r.val, row_of t r⟩ k) := by
  obtain ⟨e0, e1, -⟩ := idx_facts t
  show V c main_v63 (((cfg1.win 0).blk t).view.emb (ix2 r k)) = _
  refine congrArg (V c main_v63) ?_
  funext a; apply Fin.ext
  match a with
  | ⟨0, _⟩ => show win1_0.index t (0 : Fin 2) * 10000 + 1 * r.val = t.val * 10000 + r.val; omega
  | ⟨1, _⟩ => show win1_0.index t (1 : Fin 2) * 64 + 1 * k.val = k.val; omega

theorem rows1 (c : Dev nD) (t : Fin cfg1.N) (r : Fin 10000) (k : Fin 64) :
    iblk1 V c 1 t (ix2 r k) = V c main_arg0 (ix2 ⟨t.val * 10000 + r.val, row_of t r⟩ k) := by
  obtain ⟨-, -, e0, e1, -⟩ := idx_facts t
  show V c main_arg0 (((cfg1.win 1).blk t).view.emb (ix2 r k)) = _
  refine congrArg (V c main_arg0) ?_
  funext a; apply Fin.ext
  match a with
  | ⟨0, _⟩ => show win1_1.index t (0 : Fin 2) * 10000 + 1 * r.val = t.val * 10000 + r.val; omega
  | ⟨1, _⟩ => show win1_1.index t (1 : Fin 2) * 64 + 1 * k.val = k.val; omega

/-- A weight window's block, at every point, is the whole weight matrix. -/
theorem whole2 (c : Dev nD) (t : Fin cfg1.N) : iblk1 V c 2 t = V c main_v65 := by
  obtain ⟨-, -, -, -, e0, e1, -⟩ := idx_facts t
  funext y
  show V c main_v65 (((cfg1.win 2).blk t).view.emb y) = V c main_v65 y
  refine congrArg (V c main_v65) ?_
  funext a; apply Fin.ext
  match a with
  | ⟨0, _⟩ => show win1_2.index t (0 : Fin 2) * 64 + 1 * (y 0).val = (y 0).val; omega
  | ⟨1, _⟩ => show win1_2.index t (1 : Fin 2) * 64 + 1 * (y 1).val = (y 1).val; omega

theorem whole4 (c : Dev nD) (t : Fin cfg1.N) : iblk1 V c 4 t = V c main_v67 := by
  obtain ⟨-, -, -, -, -, -, -, e0, e1, -⟩ := idx_facts t
  funext y
  show V c main_v67 (((cfg1.win 4).blk t).view.emb y) = V c main_v67 y
  refine congrArg (V c main_v67) ?_
  funext a; apply Fin.ext
  match a with
  | ⟨0, _⟩ => show win1_4.index t (0 : Fin 2) * 64 + 1 * (y 0).val = (y 0).val; omega
  | ⟨1, _⟩ => show win1_4.index t (1 : Fin 2) * 64 + 1 * (y 1).val = (y 1).val; omega

/-- The bias window's block, at every point, is the whole bias. -/
theorem whole3 (c : Dev nD) (t : Fin cfg1.N) : iblk1 V c 3 t = V c main_arg3 := by
  obtain ⟨-, -, -, -, -, -, e0, -⟩ := idx_facts t
  funext y
  show V c main_arg3 (((cfg1.win 3).blk t).view.emb y) = V c main_arg3 y
  refine congrArg (V c main_arg3) ?_
  funext a; apply Fin.ext
  match a with
  | ⟨0, _⟩ => show win1_3.index t (0 : Fin 1) * 64 + 1 * (y 0).val = (y 0).val; omega

/-- Entry `(r, j)` of point `t`'s output block is entry `(10000·t + r, j)` of the output array. -/
theorem out_emb (t : Fin cfg1.N) (r : Fin 10000) (j : Fin 64) :
    ((cfg1.win 5).blk t).view.emb (ix2 r j) = (ix2 ⟨t.val * 10000 + r.val, row_of t r⟩ j : S200000x64.Idx) := by
  obtain ⟨-, -, -, -, -, -, -, -, -, e0, e1⟩ := idx_facts t
  funext a; apply Fin.ext
  match a with
  | ⟨0, _⟩ => show win1_5.index t (0 : Fin 2) * 10000 + 1 * r.val = t.val * 10000 + r.val; omega
  | ⟨1, _⟩ => show win1_5.index t (1 : Fin 2) * 64 + 1 * j.val = j.val; omega

/-- WHAT POINT `t` STORES at `(r, j)` of its block is the whole-array function at `(10000·t + r, j)`. -/
theorem point_eq (c : Dev nD) (t : Fin cfg1.N) (r : Fin 10000) (j : Fin 64) :
    k1_pay1 (iblk1 V c 0 t) (iblk1 V c 1 t) (iblk1 V c 2 t) (iblk1 V c 4 t) (iblk1 V c 3 t) (ix2 r j)
      = G V c (ix2 ⟨t.val * 10000 + r.val, row_of t r⟩ j) := by
  rw [Cert.KernelIdeal.Body.title_payload_apply (iblk1 V c 0 t) (iblk1 V c 1 t) (iblk1 V c 2 t) (iblk1 V c 4 t)
    (iblk1 V c 3 t) r j, whole2 V c t, whole4 V c t, whole3 V c t]
  show max (Cert.Sage.rel _ _ _ _ _ r j) 0
    = max (Cert.Sage.rel _ _ _ _ _ (⟨t.val * 10000 + r.val, row_of t r⟩ : Fin 200000) j) 0
  rw [Cert.Sage.rel_congr (iblk1 V c 0 t) (iblk1 V c 1 t) (V c main_v63) (V c main_arg0) _ _ _ r ⟨t.val * 10000 + r.val, row_of t r⟩ j
      (rows0 V c t r) (rows1 V c t r)]

/-- WHAT POINT `t` WRITES BACK is block `t` of the whole-array function. -/
theorem flushed_eq (c : Dev nD) (t : Fin cfg1.N) :
    (dat1 V c).flushed 5 t = ((cfg1.win 5).blk t).view.read (Elt Ideal) (G V c) := by
  show (cfg1.win 5).cut (grid1.coords t) ((dat1 V c).after 5 t) = _
  rw [after1_5]
  unfold out1_5
  rw [View.canon_unit_zero hz2]
  simp only [View.ld_unit_zero (S := S10000x64) hz2, View.ld_unit_zero (S := S64x64) hz2, View.ld_unit_zero (S := S64) hz1]
  funext y
  obtain ⟨r, j, rfl⟩ : ∃ (r : Fin 10000) (j : Fin 64), y = ix2 r j := ⟨y 0, y 1, eq_ix2 y⟩
  show _ = G V c (((cfg1.win 5).blk t).view.emb (ix2 r j))
  rw [out_emb t r j]
  exact point_eq V c t r j

/-- An index of the output array is in point `t`'s block iff each coordinate is in the block's range on its axis. -/
theorem mem_blk (t : Fin cfg1.N) (i : S200000x64.Idx) :
    i ∈ ((cfg1.win 5).blk t).view.set ↔ ∀ a : Fin 2, win1_5.index t a * S10000x64.size a ≤ (i a).val
      ∧ (i a).val < win1_5.index t a * S10000x64.size a + S10000x64.size a := by
  show i ∈ ((View.whole main_v73).slice (win1_5.rect t)).set ↔ _
  rw [View.set_slice_whole, Rect.mem_set_unit]
  exact Iff.rfl

/-- Every entry of the output array lies in some point's block: row `i` in block `i / 10000`. -/
theorem cover (i : S200000x64.Idx) :
    ∃ t : Fin cfg1.N, (cfg1.win 5).flush t = true ∧ i ∈ ((cfg1.win 5).blk t).view.set := by
  have hi0 : (i 0).val < 200000 := (i 0).isLt
  have hi1 : (i 1).val < 64 := (i 1).isLt
  let t : Fin cfg1.N := ⟨(i 0).val / 10000, lt_of_lt_of_eq (by omega : (i 0).val / 10000 < 20) N_1.symm⟩
  obtain ⟨-, -, -, -, -, -, -, -, -, e0, e1⟩ := idx_facts t
  have e0' : win1_5.index t (0 : Fin 2) = (i 0).val / 10000 := e0
  refine ⟨t, flush1_5 t, ?_⟩
  rw [mem_blk]
  intro a
  match a with
  | ⟨0, _⟩ => show win1_5.index t (0 : Fin 2) * 10000 ≤ (i 0).val ∧ (i 0).val < win1_5.index t (0 : Fin 2) * 10000 + 10000; omega
  | ⟨1, _⟩ => show win1_5.index t (1 : Fin 2) * 64 ≤ (i 1).val ∧ (i 1).val < win1_5.index t (1 : Fin 2) * 64 + 64; omega

/-- THE OUTPUT ARRAY after the region: the one-relation formula of the arrays as the kernel finds them. -/
theorem final (c : Dev nD) : (dat1 V c).arrAt 5 cfg1.N = G V c :=
  (dat1 V c).arrAt_eq_of_cover 5 (G V c) (fun t _ => flushed_eq V c t) cover

end Cert.KernelIdeal.TitleArray

end
-- ==== Proof.HostPrefix.lean ====
/-
  What the kernel regions find in the buffers they read.

  Before the first region the program runs, on the host, the aggregation the reference also runs: the label
  embeddings looked up by node id; for each relation the source rows gathered along the edges, summed into the
  destination rows, and divided by the larger of the edge count and one; and the four weight matrices transposed
  (the narrowing to the short float format that follows each transposition is the identity on the extended reals).
  Each of these buffers therefore holds, when the regions are entered, the SAME function of the launch arguments as
  the corresponding stage of the reference — the very same chain of operations, which is never opened here: the two
  terms are compared as they stand.  The arguments themselves are untouched.
-/
import proofs.«156364_j84043920048593_1_alg».proof.Proof.Gen.KernelIdeal.Frame
import proofs.«156364_j84043920048593_1_alg».proof.Proof.Gen.ReferenceIdeal.Read
import Idealize.ShloMosaic.Lib.StableHlo.Run

set_option maxRecDepth 16384

noncomputable section

namespace Cert.KernelIdeal.HostPrefix

open Idealize.ShloMosaic Idealize.ShloMosaic.TcCoe Idealize.SL.Sem Idealize.ShloMosaic.StableHlo
open Cert.KernelIdeal Cert.KernelIdeal.Gen

variable (m : (ℓ : Loc nD τ sig) → Buf (Elt Ideal) ℓ) (ρ : Dev nD → PrngReg)

/-- Mean of the title neighbours of each label node. -/
theorem agg_tl (c : Dev nD) : (V1 m ρ c main_v25 : (⟨2, ![100000, 64]⟩ : Shape).Idx → EReal) = Cert.ReferenceIdeal.Read.val_main_v25 (F := Ideal) (m ((c : Thread nD τ).loc main_arg0)) (m ((c : Thread nD τ).loc main_arg9)) (m ((c : Thread nD τ).loc main_arg10)) := by
  show StableHlo.after hostOps0 (W0 m ρ c) (Proc.devRef .tc main_v25) = _
  after_results_simp
  rfl

/-- The label nodes' own features: the embedding table looked up by node id. -/
theorem x_label (c : Dev nD) : (V1 m ρ c main_v6 : (⟨2, ![100000, 64]⟩ : Shape).Idx → EReal) = Cert.ReferenceIdeal.Read.val_main_v6 (F := Ideal) (m ((c : Thread nD τ).loc main_arg1)) (m ((c : Thread nD τ).loc main_arg8)) := by
  show StableHlo.after hostOps0 (W0 m ρ c) (Proc.devRef .tc main_v6) = _
  after_results_simp
  rfl

/-- Mean of the label neighbours of each label node. -/
theorem agg_ll (c : Dev nD) : (V1 m ρ c main_v44 : (⟨2, ![100000, 64]⟩ : Shape).Idx → EReal) = Cert.ReferenceIdeal.Read.val_main_v52 (F := Ideal) (m ((c : Thread nD τ).loc main_arg1)) (m ((c : Thread nD τ).loc main_arg8)) (m ((c : Thread nD τ).loc main_arg13)) (m ((c : Thread nD τ).loc main_arg14)) := by
  show StableHlo.after hostOps0 (W0 m ρ c) (Proc.devRef .tc main_v44) = _
  after_results_simp
  rfl

/-- Mean of the label neighbours of each title node. -/
theorem agg_lt (c : Dev nD) : (V1 m ρ c main_v63 : (⟨2, ![200000, 64]⟩ : Shape).Idx → EReal) = Cert.ReferenceIdeal.Read.val_main_v80 (F := Ideal) (m ((c : Thread nD τ).loc main_arg1)) (m ((c : Thread nD τ).loc main_arg8)) (m ((c : Thread nD τ).loc main_arg11)) (m ((c : Thread nD τ).loc main_arg12)) := by
  show StableHlo.after hostOps0 (W0 m ρ c) (Proc.devRef .tc main_v63) = _
  after_results_simp
  rfl

/-- The four weight matrices, transposed. -/
theorem wt2 (c : Dev nD) : (V1 m ρ c main_v65 : (⟨2, ![64, 64]⟩ : Shape).Idx → EReal) = Cert.ReferenceIdeal.Read.val_main_v26 (F := Ideal) (m ((c : Thread nD τ).loc main_arg2)) := by
  show StableHlo.after hostOps0 (W0 m ρ c) (Proc.devRef .tc main_v65) = _
  after_results_simp
  rfl

theorem wt4 (c : Dev nD) : (V1 m ρ c main_v67 : (⟨2, ![64, 64]⟩ : Shape).Idx → EReal) = Cert.ReferenceIdeal.Read.val_main_v31 (F := Ideal) (m ((c : Thread nD τ).loc main_arg4)) := by
  show StableHlo.after hostOps0 (W0 m ρ c) (Proc.devRef .tc main_v67) = _
  after_results_simp
  rfl

theorem wt5 (c : Dev nD) : (V1 m ρ c main_v69 : (⟨2, ![64, 64]⟩ : Shape).Idx → EReal) = Cert.ReferenceIdeal.Read.val_main_v53 (F := Ideal) (m ((c : Thread nD τ).loc main_arg5)) := by
  show StableHlo.after hostOps0 (W0 m ρ c) (Proc.devRef .tc main_v69) = _
  after_results_simp
  rfl

theorem wt7 (c : Dev nD) : (V1 m ρ c main_v71 : (⟨2, ![64, 64]⟩ : Shape).Idx → EReal) = Cert.ReferenceIdeal.Read.val_main_v58 (F := Ideal) (m ((c : Thread nD τ).loc main_arg7)) := by
  show StableHlo.after hostOps0 (W0 m ρ c) (Proc.devRef .tc main_v71) = _
  after_results_simp
  rfl

/-- The arguments the regions read directly are as launched. -/
theorem arg0 (c : Dev nD) : (V1 m ρ c main_arg0 : (⟨2, ![200000, 64]⟩ : Shape).Idx → EReal) = (m ((c : Thread nD τ).loc main_arg0)) := by
  show StableHlo.after hostOps0 (W0 m ρ c) (Proc.devRef .tc main_arg0) = _
  after_results_simp

theorem arg3 (c : Dev nD) : (V1 m ρ c main_arg3 : (⟨1, ![64]⟩ : Shape).Idx → EReal) = (m ((c : Thread nD τ).loc main_arg3)) := by
  show StableHlo.after hostOps0 (W0 m ρ c) (Proc.devRef .tc main_arg3) = _
  after_results_simp

theorem arg6 (c : Dev nD) : (V1 m ρ c main_arg6 : (⟨1, ![64]⟩ : Shape).Idx → EReal) = (m ((c : Thread nD τ).loc main_arg6)) := by
  show StableHlo.after hostOps0 (W0 m ρ c) (Proc.devRef .tc main_arg6) = _
  after_results_simp

end Cert.KernelIdeal.HostPrefix

end
-- ==== Proof.KernelValue.lean ====
/-
  The kernel program's two results as functions of the launch arguments.

  The label result is written by the first region and touched by nothing after it; the title result is written by the
  second region.  Each region's output array ends as the layer formula of the arrays that region finds
  (the two array modules).  The second region finds every buffer it reads exactly as the first region found it — the
  first region writes only its own output — and what the first region finds is the host aggregation of the launch
  arguments (the host-prefix module).  Put together: each result is the layer formula of the aggregated features, the
  nodes' own features, the transposed weights and the biases, all as functions of the arguments.
-/
import proofs.«156364_j84043920048593_1_alg».proof.Proof.KernelRun
import proofs.«156364_j84043920048593_1_alg».proof.Proof.LabelArray
import proofs.«156364_j84043920048593_1_alg».proof.Proof.TitleArray
import proofs.«156364_j84043920048593_1_alg».proof.Proof.HostPrefix

set_option maxRecDepth 16384

noncomputable section

namespace Cert.KernelIdeal.KernelValue

open Idealize.ShloMosaic Idealize.ShloMosaic.TcCoe Idealize.SL.Sem
open Cert.KernelIdeal Cert.KernelIdeal.Gen
open Idealize.ShloMosaic.Pipeline (Dat Cfg Window)

variable (m : (ℓ : Loc nD τ sig) → Buf (Elt Ideal) ℓ) (ρ : Dev nD → PrngReg)

/-- The label layer of the launch arguments. -/
abbrev labelOf (c : Dev nD) : (⟨2, ![100000, 64]⟩ : Shape).Idx → EReal :=
  Cert.Sage.twoRel (n := 100000)
    (Cert.ReferenceIdeal.Read.val_main_v25 (F := Ideal) (m ((c : Thread nD τ).loc main_arg0)) (m ((c : Thread nD τ).loc main_arg9)) (m ((c : Thread nD τ).loc main_arg10)))
    (Cert.ReferenceIdeal.Read.val_main_v6 (F := Ideal) (m ((c : Thread nD τ).loc main_arg1)) (m ((c : Thread nD τ).loc main_arg8)))
    (Cert.ReferenceIdeal.Read.val_main_v52 (F := Ideal) (m ((c : Thread nD τ).loc main_arg1)) (m ((c : Thread nD τ).loc main_arg8)) (m ((c : Thread nD τ).loc main_arg13)) (m ((c : Thread nD τ).loc main_arg14)))
    (Cert.ReferenceIdeal.Read.val_main_v26 (F := Ideal) (m ((c : Thread nD τ).loc main_arg2))) (Cert.ReferenceIdeal.Read.val_main_v31 (F := Ideal) (m ((c : Thread nD τ).loc main_arg4)))
    (Cert.ReferenceIdeal.Read.val_main_v53 (F := Ideal) (m ((c : Thread nD τ).loc main_arg5))) (Cert.ReferenceIdeal.Read.val_main_v58 (F := Ideal) (m ((c : Thread nD τ).loc main_arg7)))
    (m ((c : Thread nD τ).loc main_arg3)) (m ((c : Thread nD τ).loc main_arg6))

/-- The title layer of the launch arguments. -/
abbrev titleOf (c : Dev nD) : (⟨2, ![200000, 64]⟩ : Shape).Idx → EReal :=
  Cert.Sage.oneRel (n := 200000)
    (Cert.ReferenceIdeal.Read.val_main_v80 (F := Ideal) (m ((c : Thread nD τ).loc main_arg1)) (m ((c : Thread nD τ).loc main_arg8)) (m ((c : Thread nD τ).loc main_arg11)) (m ((c : Thread nD τ).loc main_arg12)))
    (m ((c : Thread nD τ).loc main_arg0))
    (Cert.ReferenceIdeal.Read.val_main_v26 (F := Ideal) (m ((c : Thread nD τ).loc main_arg2))) (Cert.ReferenceIdeal.Read.val_main_v31 (F := Ideal) (m ((c : Thread nD τ).loc main_arg4)))
    (m ((c : Thread nD τ).loc main_arg3))

/-- A buffer the first region only READS is, at the second region's entry, as the first region found it. -/
theorem V2_in (c : Dev nD) (w : Fin cfg0.W) (hin : (cfg0.win w).isOut = false) :
    V2 m ρ c (Pipeline.arrRef spec0 w) = V1 m ρ c (Pipeline.arrRef spec0 w) :=
  (W2_arr m ρ c w).trans (((dat0 (V1 m ρ) c).arrAt_in w hin _).trans (A_eq0 (V1 m ρ) c w))

/-- THE LABEL RESULT at the last boundary is the label layer of the launch arguments. -/
theorem label_result (c : Dev nD) : W3 m ρ c (Proc.devRef .tc main_v72) = labelOf m c := by
  have h1 : W3 m ρ c (Proc.devRef .tc main_v72) = W2 m ρ c (Proc.devRef .tc main_v72) := W3_of_ne m ρ c main_v72 (by decide)
  have h2 : W2 m ρ c (Proc.devRef .tc main_v72) = (dat0 (V1 m ρ) c).arrAt 9 cfg0.N := W2_arr m ρ c 9
  rw [h1, h2, Cert.KernelIdeal.LabelArray.final (V1 m ρ) c]
  show Cert.Sage.twoRel (n := 100000) (V1 m ρ c main_v25) (V1 m ρ c main_v6) (V1 m ρ c main_v44) (V1 m ρ c main_v65)
    (V1 m ρ c main_v67) (V1 m ρ c main_v69) (V1 m ρ c main_v71) (V1 m ρ c main_arg3) (V1 m ρ c main_arg6) = _
  rw [Cert.KernelIdeal.HostPrefix.agg_tl m ρ c, Cert.KernelIdeal.HostPrefix.x_label m ρ c, Cert.KernelIdeal.HostPrefix.agg_ll m ρ c,
    Cert.KernelIdeal.HostPrefix.wt2 m ρ c, Cert.KernelIdeal.HostPrefix.wt4 m ρ c, Cert.KernelIdeal.HostPrefix.wt5 m ρ c,
    Cert.KernelIdeal.HostPrefix.wt7 m ρ c, Cert.KernelIdeal.HostPrefix.arg3 m ρ c, Cert.KernelIdeal.HostPrefix.arg6 m ρ c]

/-- THE TITLE RESULT at the last boundary is the title layer of the launch arguments. -/
theorem title_result (c : Dev nD) : W3 m ρ c (Proc.devRef .tc main_v73) = titleOf m c := by
  have h1 : W3 m ρ c (Proc.devRef .tc main_v73) = (dat1 (V2 m ρ) c).arrAt 5 cfg1.N := W3_arr m ρ c 5
  rw [h1, Cert.KernelIdeal.TitleArray.final (V2 m ρ) c]
  show Cert.Sage.oneRel (n := 200000) (V2 m ρ c main_v63) (V2 m ρ c main_arg0) (V2 m ρ c main_v65) (V2 m ρ c main_v67)
    (V2 m ρ c main_arg3) = _
  have e63 : V2 m ρ c main_v63 = V1 m ρ c main_v63 := W2_of_ne m ρ c main_v63 (by decide)
  have e0 : V2 m ρ c main_arg0 = V1 m ρ c main_arg0 := W2_of_ne m ρ c main_arg0 (by decide)
  have e65 : V2 m ρ c main_v65 = V1 m ρ c main_v65 := V2_in m ρ c 3 rfl
  have e3 : V2 m ρ c main_arg3 = V1 m ρ c main_arg3 := V2_in m ρ c 4 rfl
  have e67 : V2 m ρ c main_v67 = V1 m ρ c main_v67 := V2_in m ρ c 5 rfl
  rw [e63, e0, e65, e67, e3, Cert.KernelIdeal.HostPrefix.agg_lt m ρ c, Cert.KernelIdeal.HostPrefix.arg0 m ρ c,
    Cert.KernelIdeal.HostPrefix.wt2 m ρ c, Cert.KernelIdeal.HostPrefix.wt4 m ρ c, Cert.KernelIdeal.HostPrefix.arg3 m ρ c]

/-- THE RUN, READ: every weakly fair execution of the kernel program terminates, nothing faulting, with the label
    result at the label layer and the title result at the title layer of the launch arguments, the arguments kept. -/
theorem run : θ_run defs (onTc (τ := τ) (main (F := Ideal))) ⟨m, fun _ => 0, ρ⟩ (fun r => ∀ c : Dev nD,
      r.2.mem ((c.tc : Thread nD τ).loc main_v72) = labelOf m c
      ∧ r.2.mem ((c.tc : Thread nD τ).loc main_v73) = titleOf m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun r h c => ⟨(h c).1.trans (label_result m ρ c), (h c).2.1.trans (title_result m ρ c), (h c).2.2⟩)
    (Cert.KernelIdeal.KernelRun.run_results m ρ)

end Cert.KernelIdeal.KernelValue

end
-- ==== Proof.LibHostDot.lean ====
/-
  A host matrix product read at an index.

  The host's `dot_general` of an m×k matrix by a k×n matrix, contracting the first operand's second axis with the
  second operand's first axis and with no batch axis, read at row `a` and column `b` at the exact instance, is the sum
  over the contracted coordinate `c` of the products of the entries `(a, c)` and `(c, b)`.  Stated for the record
  spelt out with its well-formedness evidence as a variable, which is the shape a printed program's product records
  take once unfolded.
-/
import Idealize.ShloMosaic.Lib.ValueIdx
import Idealize.ShloMosaic.Lib.Pipeline.Value
import Idealize.ShloMosaic.PureOps.Ideal.Laws

noncomputable section

namespace Cert.LibHostDot

open Idealize.ShloMosaic Idealize.ShloMosaic.ValueIdx

/-- The host product of an m×k by a k×n matrix at `(a, b)` is `∑ c, A (a, c) * B (c, b)`. -/
theorem hostDot_nn_apply {m k n : Nat} {φ₁ φ₂ : FTy}
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂)
    (a : Fin m) (b : Fin n) :
    Host.dotGeneral (⟨[1], [0], [0], [1], [], [], w⟩ : DotDims ⟨2, ![m, k]⟩ ⟨2, ![k, n]⟩ ⟨2, ![m, n]⟩) prec A B (ix2 a b)
      = ∑ c : Fin k, A (ix2 a c) * B (ix2 c b) := by
  show FloatOps.dotGeneral _ prec _ A B (ix2 a b) = _
  rw [Ideal.dotGeneral_apply,
    ← Equiv.sum_comp (contrEquiv1 (⟨[1], [0], [0], [1], [], [], w⟩ : DotDims ⟨2, ![m, k]⟩ ⟨2, ![k, n]⟩ ⟨2, ![m, n]⟩) k rfl rfl).symm]
  refine Finset.sum_congr rfl fun c _ => ?_
  have c2 := contrEquiv1_symm_val (⟨[1], [0], [0], [1], [], [], w⟩ : DotDims ⟨2, ![m, k]⟩ ⟨2, ![k, n]⟩ ⟨2, ![m, n]⟩) k rfl rfl c
  have l2 : (⟨[1], [0], [0], [1], [], [], w⟩ : DotDims ⟨2, ![m, k]⟩ ⟨2, ![k, n]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

end Cert.LibHostDot

end
-- ==== Proof.RefValue.lean ====
import proofs.«156364_j84043920048593_1_alg».proof.Proof.Gen.ReferenceIdeal.Read
import proofs.«156364_j84043920048593_1_alg».proof.Proof.LibHostDot
import proofs.«156364_j84043920048593_1_alg».proof.Proof.SageSpec
import Idealize.ShloMosaic.Lib.ValueIdx
import Idealize.ShloMosaic.PureOps.Ideal.Laws
/-
  The reference program's two results, read at the exact instance, are the layer of the specification.

  The label result is the positive part of the sum of two contributions, the title result the positive part of one.
  Each contribution is, at row `r` and feature `j`,

      (∑ k, A (r, k) * Wt (k, j) + b j) + ∑ k, X (r, k) * Vt (k, j)

  with `A` the mean of the neighbours' features (kept as the opaque stage that computes it), `X` the node's own
  features, `Wt`, `Vt` the transposed weight matrices (the transposition stages themselves) and `b` the bias.  The
  program adds the terms in exactly this grouping, so after reading every pointwise stage, every matrix product (a sum
  over the contracted coordinate) and every broadcast at the index `(r, j)`, and identifying the composed index
  functions with rows, columns and the bias coordinate, both sides are the same expression.
-/

noncomputable section

namespace Cert.ReferenceIdeal.RefValue

open Cert.ReferenceIdeal Cert.ReferenceIdeal.Read Idealize.ShloMosaic Idealize.ShloMosaic.ValueIdx

/-! ## The index functions of the products and of the bias broadcasts, at `(r, j)` -/

/-- The left operand of product %27 is read along row `r`. -/
theorem lidx_v27 (r : Fin 100000) (j k : Fin 64) : lidx_main_v27 (ix2 r j) k = ix2 r k :=
  funext fun a => Fin.ext (by
    match a with
    | ⟨0, _⟩ => rfl
    | ⟨1, _⟩ => rfl)
/-- The right operand of product %27 is read along column `j`. -/
theorem ridx_v27 (r : Fin 100000) (j k : Fin 64) : ridx_main_v27 (ix2 r j) k = ix2 k j :=
  funext fun a => Fin.ext (by
    match a with
    | ⟨0, _⟩ => rfl
    | ⟨1, _⟩ => rfl)

/-- The left operand of product %32 is read along row `r`. -/
theorem lidx_v32 (r : Fin 100000) (j k : Fin 64) : lidx_main_v32 (ix2 r j) k = ix2 r k :=
  funext fun a => Fin.ext (by
    match a with
    | ⟨0, _⟩ => rfl
    | ⟨1, _⟩ => rfl)
/-- The right operand of product %32 is read along column `j`. -/
theorem ridx_v32 (r : Fin 100000) (j k : Fin 64) : ridx_main_v32 (ix2 r j) k = ix2 k j :=
  funext fun a => Fin.ext (by
    match a with
    | ⟨0, _⟩ => rfl
    | ⟨1, _⟩ => rfl)

/-- The left operand of product %54 is read along row `r`. -/
theorem lidx_v54 (r : Fin 100000) (j k : Fin 64) : lidx_main_v54 (ix2 r j) k = ix2 r k :=
  funext fun a => Fin.ext (by
    match a with
    | ⟨0, _⟩ => rfl
    | ⟨1, _⟩ => rfl)
/-- The right operand of product %54 is read along column `j`. -/
theorem ridx_v54 (r : Fin 100000) (j k : Fin 64) : ridx_main_v54 (ix2 r j) k = ix2 k j :=
  funext fun a => Fin.ext (by
    match a with
    | ⟨0, _⟩ => rfl
    | ⟨1, _⟩ => rfl)

/-- The left operand of product %59 is read along row `r`. -/
theorem lidx_v59 (r : Fin 100000) (j k : Fin 64) : lidx_main_v59 (ix2 r j) k = ix2 r k :=
  funext fun a => Fin.ext (by
    match a with
    | ⟨0, _⟩ => rfl
    | ⟨1, _⟩ => rfl)
/-- The right operand of product %59 is read along column `j`. -/
theorem ridx_v59 (r : Fin 100000) (j k : Fin 64) : ridx_main_v59 (ix2 r j) k = ix2 k j :=
  funext fun a => Fin.ext (by
    match a with
    | ⟨0, _⟩ => rfl
    | ⟨1, _⟩ => rfl)

/-- The left operand of product %82 is read along row `r`. -/
theorem lidx_v82 (r : Fin 200000) (j k : Fin 64) : lidx_main_v82 (ix2 r j) k = ix2 r k :=
  funext fun a => Fin.ext (by
    match a with
    | ⟨0, _⟩ => rfl
    | ⟨1, _⟩ => rfl)
/-- The right operand of product %82 is read along column `j`. -/
theorem ridx_v82 (r : Fin 200000) (j k : Fin 64) : ridx_main_v82 (ix2 r j) k = ix2 k j :=
  funext fun a => Fin.ext (by
    match a with
    | ⟨0, _⟩ => rfl
    | ⟨1, _⟩ => rfl)

/-- The left operand of product %87 is read along row `r`. -/
theorem lidx_v87 (r : Fin 200000) (j k : Fin 64) : lidx_main_v87 (ix2 r j) k = ix2 r k :=
  funext fun a => Fin.ext (by
    match a with
    | ⟨0, _⟩ => rfl
    | ⟨1, _⟩ => rfl)
/-- The right operand of product %87 is read along column `j`. -/
theorem ridx_v87 (r : Fin 200000) (j k : Fin 64) : ridx_main_v87 (ix2 r j) k = ix2 k j :=
  funext fun a => Fin.ext (by
    match a with
    | ⟨0, _⟩ => rfl
    | ⟨1, _⟩ => rfl)

/-- The first relation's bias, broadcast to a row and then to the matrix, is read at the feature coordinate. -/
theorem bidx_v29 (r : Fin 100000) (j : Fin 64) : idx_main_v28 (idx_main_v29 (ix2 r j)) = ix1 j :=
  funext fun a => Fin.ext (by
    match a with
    | ⟨0, _⟩ => rfl)
/-- The second relation's bias likewise. -/
theorem bidx_v56 (r : Fin 100000) (j : Fin 64) : idx_main_v55 (idx_main_v56 (ix2 r j)) = ix1 j :=
  funext fun a => Fin.ext (by
    match a with
    | ⟨0, _⟩ => rfl)
/-- The title relation's bias likewise. -/
theorem bidx_v84 (r : Fin 200000) (j : Fin 64) : idx_main_v83 (idx_main_v84 (ix2 r j)) = ix1 j :=
  funext fun a => Fin.ext (by
    match a with
    | ⟨0, _⟩ => rfl)

/-- The constant the label result is compared with is the extended real `0`. -/
theorem zero_call0 (i : S100000x64.Idx) : val_main_call0_v0 (F := Ideal) i = 0 := by
  rw [val_main_call0_v0_apply, val_main_call0_cst_apply, Ideal.ofBits_def, Ideal.ofBits_zero_f32]
/-- The constant the title result is compared with is the extended real `0`. -/
theorem zero_call1 (i : S200000x64.Idx) : val_main_call1_v0 (F := Ideal) i = 0 := by
  rw [val_main_call1_v0_apply, val_main_call1_cst_apply, Ideal.ofBits_def, Ideal.ofBits_zero_f32]

/-! ## The two results -/

/-- The label result: two relations (titles to labels, labels to labels) into the label nodes. -/
theorem label_eq (x0 : (⟨S200000x64, .f32⟩ : BufTy).Contents (Elt Ideal)) (x1 : (⟨S100000x64, .f32⟩ : BufTy).Contents (Elt Ideal)) (x2 : (⟨S64x64, .f32⟩ : BufTy).Contents (Elt Ideal)) (x3 : (⟨S64, .f32⟩ : BufTy).Contents (Elt Ideal)) (x4 x5 : (⟨S64x64, .f32⟩ : BufTy).Contents (Elt Ideal)) (x6 : (⟨S64, .f32⟩ : BufTy).Contents (Elt Ideal)) (x7 : (⟨S64x64, .f32⟩ : BufTy).Contents (Elt Ideal)) (x8 : (⟨S100000, .i32⟩ : BufTy).Contents (Elt Ideal)) (x9 x10 : (⟨S1600000, .i32⟩ : BufTy).Contents (Elt Ideal)) (x13 x14 : (⟨S800000, .i32⟩ : BufTy).Contents (Elt Ideal)) :
    val_main_v89 (F := Ideal) x0 x1 x2 x3 x4 x5 x6 x7 x8 x9 x10 x13 x14
      = Cert.Sage.twoRel (val_main_v25 (F := Ideal) x0 x9 x10) (val_main_v6 (F := Ideal) x1 x8) (val_main_v52 (F := Ideal) x1 x8 x13 x14)
          (val_main_v26 (F := Ideal) x2) (val_main_v31 (F := Ideal) x4) (val_main_v53 (F := Ideal) x5) (val_main_v58 (F := Ideal) x7) x3 x6 := by
  funext i
  obtain ⟨r, j, rfl⟩ : ∃ (r : Fin 100000) (j : Fin 64), i = ix2 r j := ⟨i 0, i 1, eq_ix2 i⟩
  rw [val_main_v89_apply, val_main_v61_apply, val_main_v33_apply, val_main_v30_apply, val_main_v27_apply,
    val_main_v29_apply, val_main_v28_apply, val_main_v32_apply, val_main_v60_apply, val_main_v57_apply,
    val_main_v54_apply, val_main_v56_apply, val_main_v55_apply, val_main_v59_apply, zero_call0]
  generalize val_main_v25 (F := Ideal) x0 x9 x10 = A₁
  generalize val_main_v6 (F := Ideal) x1 x8 = X
  generalize val_main_v52 (F := Ideal) x1 x8 x13 x14 = A₂
  generalize val_main_v26 (F := Ideal) x2 = W₁
  generalize val_main_v31 (F := Ideal) x4 = V₁
  generalize val_main_v53 (F := Ideal) x5 = W₂
  generalize val_main_v58 (F := Ideal) x7 = V₂
  simp only [lidx_v27, ridx_v27, lidx_v32, ridx_v32, lidx_v54, ridx_v54, lidx_v59, ridx_v59, bidx_v29, bidx_v56,
    Ideal.addf_def, Ideal.maximumf_def]
  unfold Cert.Sage.twoRel Cert.Sage.rel
  rfl

/-- The title result: one relation (labels to titles) into the title nodes. -/
theorem title_eq (x0 : (⟨S200000x64, .f32⟩ : BufTy).Contents (Elt Ideal)) (x1 : (⟨S100000x64, .f32⟩ : BufTy).Contents (Elt Ideal)) (x2 : (⟨S64x64, .f32⟩ : BufTy).Contents (Elt Ideal)) (x3 : (⟨S64, .f32⟩ : BufTy).Contents (Elt Ideal)) (x4 : (⟨S64x64, .f32⟩ : BufTy).Contents (Elt Ideal)) (x8 : (⟨S100000, .i32⟩ : BufTy).Contents (Elt Ideal)) (x11 x12 : (⟨S1600000, .i32⟩ : BufTy).Contents (Elt Ideal)) :
    val_main_v90 (F := Ideal) x0 x1 x2 x3 x4 x8 x11 x12
      = Cert.Sage.oneRel (val_main_v80 (F := Ideal) x1 x8 x11 x12) x0 (val_main_v81 (F := Ideal) x2) (val_main_v86 (F := Ideal) x4) x3 := by
  funext i
  obtain ⟨r, j, rfl⟩ : ∃ (r : Fin 200000) (j : Fin 64), i = ix2 r j := ⟨i 0, i 1, eq_ix2 i⟩
  rw [val_main_v90_apply, val_main_v88_apply, val_main_v85_apply, val_main_v82_apply, val_main_v84_apply,
    val_main_v83_apply, val_main_v87_apply, zero_call1]
  generalize val_main_v80 (F := Ideal) x1 x8 x11 x12 = A
  generalize val_main_v81 (F := Ideal) x2 = W
  generalize val_main_v86 (F := Ideal) x4 = V
  simp only [lidx_v82, ridx_v82, lidx_v87, ridx_v87, bidx_v84, Ideal.addf_def, Ideal.maximumf_def]
  unfold Cert.Sage.oneRel Cert.Sage.rel
  rfl

end Cert.ReferenceIdeal.RefValue

end
-- ==== Proof.lean ====
/-
  A heterogeneous graph-convolution layer with mean aggregation: the kernel program against its reference.

  Both programs first aggregate on the host, by the same chain of operations: the label embeddings looked up by node
  id; for each of the three relations the source rows gathered along the edges, summed into the destination rows and
  divided by the larger of the edge count and one.  They then combine, for every destination node `r` and output
  feature `j`,

      label:  max (((∑ k A₁(r,k)·W₁ᵀ(k,j) + b₁ j) + ∑ k X(r,k)·V₁ᵀ(k,j)) + ((∑ k A₂(r,k)·W₂ᵀ(k,j) + b₂ j) + ∑ k X(r,k)·V₂ᵀ(k,j))) 0
      title:  max ((∑ k A₃(r,k)·W₁ᵀ(k,j) + b₁ j) + ∑ k T(r,k)·V₁ᵀ(k,j)) 0

  The reference does this with whole-matrix products on the host; the kernel program does it in two regions, each
  working on blocks of 10000 destination rows, with matrix products into zero accumulators on operands narrowed to a
  shorter float format.  On the extended reals a change of format is the identity, a product into zero is the plain
  sum over the contracted coordinate, and both programs add the terms in the same grouping, so the two results are the
  same functions of the arguments entry by entry; no algebraic law, and hence no finiteness of the inputs, is needed.
  The aggregation chain is never opened: it is the same term on both sides.

  The frames of the two kernel programs are the generated ones; the reference's frame is its run with the results
  dropped.  The idealization rewrote no operation, so there is nothing to preserve.
-/
import proofs.«156364_j84043920048593_1_alg».proof.Defs
import proofs.«156364_j84043920048593_1_alg».proof.Proof.Gen.Kernel
import proofs.«156364_j84043920048593_1_alg».proof.Proof.Gen.Kernel.Frame
import proofs.«156364_j84043920048593_1_alg».proof.Proof.Gen.KernelIdeal
import proofs.«156364_j84043920048593_1_alg».proof.Proof.Gen.KernelIdeal.Frame
import proofs.«156364_j84043920048593_1_alg».proof.Proof.Gen.ReferenceIdeal
import proofs.«156364_j84043920048593_1_alg».proof.Proof.Gen.ReferenceIdeal.Run
import proofs.«156364_j84043920048593_1_alg».proof.Proof.Gen.ReferenceIdeal.Read
import proofs.«156364_j84043920048593_1_alg».proof.Proof.Gen.Pre_finite_inputs
import proofs.«156364_j84043920048593_1_alg».proof.Proof.KernelValue
import proofs.«156364_j84043920048593_1_alg».proof.Proof.RefValue
import Idealize.ShloMosaic.Adequacy
import Idealize.ShloMosaic.Init

set_option maxRecDepth 16384

noncomputable section

namespace Cert.Proof

open Idealize.ShloMosaic Idealize.ShloMosaic.TcCoe Idealize.SL.Sem

theorem frame_kernel : @Cert.frame_Kernel Cert.Kernel.Gen.facts Cert.Pre_finite_inputs.Gen.facts :=
  fun m ρ _ => Cert.Kernel.Gen.frame m ρ

theorem frame_kernelIdeal : @Cert.frame_KernelIdeal Cert.KernelIdeal.Gen.facts Cert.Pre_finite_inputs.Gen.facts :=
  fun m ρ _ => Cert.KernelIdeal.Gen.frame m ρ

/-- The reference's frame: its run, with what it says of the results dropped. -/
theorem frame_reference : @Cert.frame_ReferenceIdeal Cert.ReferenceIdeal.Gen.facts Cert.Pre_finite_inputs.Gen.facts :=
  fun m ρ _ => (θ_run Cert.ReferenceIdeal.defs _ _).mono (fun _ h c => (h c).2.2)
    (Cert.ReferenceIdeal.Value.run (F := Ideal) m ρ)

/-- From memories that agree on the arguments both programs end with the label layer and the title layer of those
    arguments: the kernel program by its run read through the two regions, the reference by its run read stage by
    stage. -/
theorem algebraic : @Cert.algebraic_KernelIdeal_ReferenceIdeal Cert.KernelIdeal.Gen.facts Cert.ReferenceIdeal.Gen.facts
    Cert.Pre_finite_inputs.Gen.facts := by
  intro m ρ m' ρ' _ hagree
  refine ⟨fun c => Cert.KernelIdeal.KernelValue.labelOf m c, fun c => Cert.KernelIdeal.KernelValue.titleOf m c,
    Cert.KernelIdeal.KernelValue.run m ρ, ?_⟩
  refine (θ_run Cert.ReferenceIdeal.defs _ _).mono (fun _ h c => ⟨?_, ?_, (h c).2.2⟩)
    (Cert.ReferenceIdeal.Value.run (F := Ideal) m' ρ')
  · obtain ⟨h0, h1, h2, h3, h4, h5, h6, h7, h8, h9, h10, h11, h12, h13, h14⟩ := hagree c
    refine (h c).1.trans ?_
    rw [Cert.ReferenceIdeal.Read.val_main_v89_eq, Cert.ReferenceIdeal.RefValue.label_eq, h0, h1, h2, h3, h4, h5, h6, h7, h8, h9, h10, h13, h14]
  · obtain ⟨h0, h1, h2, h3, h4, h5, h6, h7, h8, h9, h10, h11, h12, h13, h14⟩ := hagree c
    refine ((h c).2.1.trans (Cert.ReferenceIdeal.Read.val_main_v90_eq (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg11)) (m' ((c.tc : Thread Cert.ReferenceIdeal.nD Cert.ReferenceIdeal.τ).loc Cert.ReferenceIdeal.main_arg12)))).trans ?_
    rw [Cert.ReferenceIdeal.RefValue.title_eq, h0, h1, h2, h3, h4, h8, h11, h12]
    rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
